-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x128 : Shape := ⟨2, ![3, 128]⟩
abbrev S800000 : Shape := ⟨1, ![800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn {F : FTy → Type} [FloatOps F] (main_arg0 : FVec F S50000x128 .f32) (main_arg1 : FVec F S3x128x128 .f32) (main_arg2 : FVec F S3x128 .f32) (main_arg3 : IVec S800000 32) (main_arg4 : IVec S800000 32) (main_arg5 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  main_v13
-- ==== Kernel.lean ====
abbrev S50000x128 : Shape := ⟨2, ![50000, 128]⟩
abbrev S3x128x128 : Shape := ⟨3, ![3, 128, 128]⟩
abbrev S3x128 : Shape := ⟨2, ![3, 128]⟩
abbrev S800000 : Shape := ⟨1, ![800000]⟩
abbrev S50000 : Shape := ⟨1, ![50000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S2000x1 : Shape := ⟨2, ![2000, 1]⟩
abbrev S256 : Shape := ⟨1, ![256]⟩
abbrev S256x128 : Shape := ⟨2, ![256, 128]⟩
abbrev S256x1 : Shape := ⟨2, ![256, 1]⟩

abbrev nBuf : Space → Nat
  | .hbm => 108
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S3x128x128, .f32⟩
  | .hbm, ⟨2, _⟩ => ⟨S3x128, .f32⟩
  | .hbm, ⟨3, _⟩ => ⟨S800000, .i32⟩
  | .hbm, ⟨4, _⟩ => ⟨S800000, .i32⟩
  | .hbm, ⟨5, _⟩ => ⟨S50000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S1x128x128, .f32⟩
  | .hbm, ⟨44, _⟩ => ⟨S128x128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S1x128x128, .f32⟩
  | .hbm, ⟨65, _⟩ => ⟨S128x128, .f32⟩
  | .hbm, ⟨66, _⟩ => ⟨S1x128, .f32⟩
  | .hbm, ⟨67, _⟩ => ⟨S128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S1x128x128, .f32⟩
  | .hbm, ⟨86, _⟩ => ⟨S128x128, .f32⟩
  | .hbm, ⟨87, _⟩ => ⟨S1x128, .f32⟩
  | .hbm, ⟨88, _⟩ => ⟨S128, .f32⟩
  | .hbm, ⟨89, _⟩ => ⟨S1x128, .f32⟩
  | .hbm, ⟨90, _⟩ => ⟨S50000x128, .f32⟩
  | .hbm, ⟨91, _⟩ => ⟨S_, .f32⟩
  | .hbm, ⟨92, _⟩ => ⟨S50000, .f32⟩
  | .hbm, ⟨93, _⟩ => ⟨S_, .f32⟩
  | .hbm, ⟨94, _⟩ => ⟨S256, .f32⟩
  | .hbm, ⟨95, _⟩ => ⟨S50000x1, .i32⟩
  | .hbm, ⟨96, _⟩ => ⟨S256, .f32⟩
  | .hbm, ⟨97, _⟩ => ⟨S_, .f32⟩
  | .hbm, ⟨98, _⟩ => ⟨S_, .f32⟩
  | .hbm, ⟨99, _⟩ => ⟨S256, .f32⟩
  | .hbm, ⟨100, _⟩ => ⟨S256, .f32⟩
  | .hbm, ⟨101, _⟩ => ⟨S_, .f32⟩
  | .hbm, ⟨102, _⟩ => ⟨S256x128, .f32⟩
  | .hbm, ⟨103, _⟩ => ⟨S50000x1, .i32⟩
  | .hbm, ⟨104, _⟩ => ⟨S256x128, .f32⟩
  | .hbm, ⟨105, _⟩ => ⟨S256x1, .f32⟩
  | .hbm, ⟨106, _⟩ => ⟨S256x128, .f32⟩
  | .hbm, ⟨107, _⟩ => ⟨S256x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_call2_v0 : Ref sig .tc := ⟨.hbm, 98, rfl⟩
abbrev main_call2_v1 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S256 : S_.BroadcastsInDim S256 (![] : Fin 0 → Fin S256.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  scatter_S256_S50000x1_S50000_n_0_0_1_wf : ScatterDims.WF S256 S50000x1 S50000 [] [0] [0] 1
  scatter_S256x128_S50000x1_S50000x128_1_0_0_1_wf : ScatterDims.WF S256x128 S50000x1 S50000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v60) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S3x128x128 : Shape := ⟨3, ![3, 128, 128]⟩
abbrev S3x128 : Shape := ⟨2, ![3, 128]⟩
abbrev S800000 : Shape := ⟨1, ![800000]⟩
abbrev S50000 : Shape := ⟨1, ![50000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S256 : Shape := ⟨1, ![256]⟩
abbrev S256x128 : Shape := ⟨2, ![256, 128]⟩
abbrev S256x1 : Shape := ⟨2, ![256, 1]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S800000, .i32⟩
  | 4 => ⟨S800000, .i32⟩
  | 5 => ⟨S50000, .i32⟩
  | 6 => ⟨S_, .f32⟩
  | 7 => ⟨S800000, .f32⟩
  | 8 => ⟨S_, .f32⟩
  | 9 => ⟨S50000, .f32⟩
  | 10 => ⟨S800000x1, .i32⟩
  | 11 => ⟨S50000, .f32⟩
  | 12 => ⟨S_, .f32⟩
  | 13 => ⟨S_, .f32⟩
  | 14 => ⟨S50000, .f32⟩
  | 15 => ⟨S50000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S_, .f32⟩
  | 22 => ⟨S50000, .f32⟩
  | 23 => ⟨S50000, .f32⟩
  | 24 => ⟨S50000, .f32⟩
  | 25 => ⟨S50000x1, .f32⟩
  | 26 => ⟨S50000, .f32⟩
  | 27 => ⟨S50000x1, .f32⟩
  | 28 => ⟨S50000x128, .f32⟩
  | 29 => ⟨S50000x128, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S50000x128, .f32⟩
  | 44 => ⟨S50000x128, .f32⟩
  | 45 => ⟨S1x128x128, .f32⟩
  | 46 => ⟨S128x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S50000x128, .f32⟩
  | 57 => ⟨S50000x128, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S50000x128, .f32⟩
  | 72 => ⟨S50000x128, .f32⟩
  | 73 => ⟨S1x128x128, .f32⟩
  | 74 => ⟨S128x128, .f32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S50000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S50000x128, .f32⟩
  | 100 => ⟨S50000x128, .f32⟩
  | 101 => ⟨S1x128x128, .f32⟩
  | 102 => ⟨S128x128, .f32⟩
  | 103 => ⟨S50000x128, .f32⟩
  | 104 => ⟨S1x128, .f32⟩
  | 105 => ⟨S128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S_, .f32⟩
  | 113 => ⟨S50000, .f32⟩
  | 114 => ⟨S_, .f32⟩
  | 115 => ⟨S256, .f32⟩
  | 116 => ⟨S50000x1, .i32⟩
  | 117 => ⟨S256, .f32⟩
  | 118 => ⟨S_, .f32⟩
  | 119 => ⟨S_, .f32⟩
  | 120 => ⟨S256, .f32⟩
  | 121 => ⟨S256, .f32⟩
  | 122 => ⟨S_, .f32⟩
  | 123 => ⟨S256x128, .f32⟩
  | 124 => ⟨S50000x1, .i32⟩
  | 125 => ⟨S256x128, .f32⟩
  | 126 => ⟨S256x1, .f32⟩
  | 127 => ⟨S256x128, .f32⟩
  | _ => ⟨S50000x128, .f32⟩

abbrev hbmTy0_1 (i : Nat) : BufTy := match i % 128 with
  | 0 => ⟨S256x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call2_cst : Ref sig .tc := ⟨.hbm, 53, rfl⟩
abbrev main_call2_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call3_cst : Ref sig .tc := ⟨.hbm, 81, rfl⟩
abbrev main_call3_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_9 : Ref sig .tc := ⟨.hbm, 86, rfl⟩
abbrev main_v61 : Ref sig .tc := ⟨.hbm, 87, rfl⟩
abbrev main_v62 : Ref sig .tc := ⟨.hbm, 88, rfl⟩
abbrev main_c_10 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_call4_cst : Ref sig .tc := ⟨.hbm, 109, rfl⟩
abbrev main_call4_v0 : Ref sig .tc := ⟨.hbm, 110, rfl⟩
abbrev main_v81 : Ref sig .tc := ⟨.hbm, 111, rfl⟩
abbrev main_cst_12 : Ref sig .tc := ⟨.hbm, 112, rfl⟩
abbrev main_v82 : Ref sig .tc := ⟨.hbm, 113, rfl⟩
abbrev main_cst_13 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_14 : Ref sig .tc := ⟨.hbm, 118, rfl⟩
abbrev main_call5_v0 : Ref sig .tc := ⟨.hbm, 119, rfl⟩
abbrev main_call5_v1 : Ref sig .tc := ⟨.hbm, 120, rfl⟩
abbrev main_v86 : Ref sig .tc := ⟨.hbm, 121, rfl⟩
abbrev main_cst_15 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S256 : S_.BroadcastsInDim S256 (![] : Fin 0 → Fin S256.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S256_S50000x1_S50000_n_0_0_1_wf : ScatterDims.WF S256 S50000x1 S50000 [] [0] [0] 1
  scatter_S256x128_S50000x1_S50000x128_1_0_0_1_wf : ScatterDims.WF S256x128 S50000x1 S50000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf

class Facts : Prop extends Facts₀ where

variable [Facts]
-- ==== Proof.KRun.lean ====
/-
  The idealized kernel program's run with its RESULT named.

  @main is thirteen segments: five stretches of host operations, the first layer's kernel call, a stretch, the second
  call, a stretch, the third call, and three closing stretches. The contents of the unscoped buffers at each boundary
  are a fold from the launch memory (the generated `Gen.W0 … Gen.W13`: a stretch applies its operations, a call
  replaces its result array by what its write-backs leave). Every weakly fair execution terminates, without a fault, in
  a state whose unscoped buffers hold the last fold `Gen.W13`; so the result buffer holds `Gen.W13` there, and the six
  argument arrays are as launched: the launch over the segments (`Pipeline.θ_run_regions_kit`) with the frame
  certificate's segments, thread states and proof data, the result buffer read off the final state beside the arguments.
-/
import proofs.«153640_j84679575208613_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v77) = W13 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v77 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

end Cert.KernelIdeal.Whole

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibRowBlock.lean ====
/-
  GENERAL LEMMAS: a matrix product read one block of rows at a time, and a row vector added to every row.

  * `matProd_of_rows`: entry `j` of `x · w` is entry `i` of `X · W` as soon as row `j 0` of `x` is row `i 0` of `X` and
    column `j 1` of `w` is column `i 1` of `W` — what a kernel that multiplies a block of rows at each grid point
    needs against ONE whole product (a row of a product depends on that row of the left operand only).
  * `rowBiasMax`: a `1 × K` row added to every row of an `R × K` matrix, then the maximum with a constant, entry by
    entry; `rowBiasMax_of_vector_ops` reads the vector operations `max (x + broadcast b) (splat z)` as it, and
    `rowBiasMax_of_host_ops` reads the host's two `broadcast_in_dim`s of a length-`K` vector as it (at the vector
    reshaped to one row).

  Everything is over the extended reals with no finiteness hypothesis. Imports the library and `LibMatProd.lean`.
-/
import proofs.«153640_j84679575208613_2_alg».proof.Proof.LibMatProd
import Idealize.ShloMosaic.Lib.ValueLayout
import Idealize.ShloMosaic.Lib.Pipeline.Value

noncomputable section

open scoped BigOperators

namespace Cert.Linear

open Idealize.ShloMosaic Idealize.ShloMosaic.ValueIdx

/-- Entry `j` of `x · w` is entry `i` of `X · W` when row `j 0` of `x` is row `i 0` of `X` and column `j 1` of `w` is
    column `i 1` of `W`. -/
theorem matProd_of_rows {R r K N n : Nat} (X : (Mat R K).Idx → EReal) (W : (Mat K N).Idx → EReal)
    (x : (Mat r K).Idx → EReal) (w : (Mat K n).Idx → EReal) (j : (Mat r n).Idx) (i : (Mat R N).Idx)
    (hx : ∀ k : Fin K, x (ix2 (n0 := r) (n1 := K) (j 0) k) = X (ix2 (n0 := R) (n1 := K) (i 0) k))
    (hw : ∀ k : Fin K, w (ix2 (n0 := K) (n1 := n) k (j 1)) = W (ix2 (n0 := K) (n1 := N) k (i 1))) :
    matProd x w j = matProd X W i := by
  unfold matProd
  exact Finset.sum_congr rfl fun k _ => by rw [hx k, hw k]

/-- A `1 × K` row `B` added to every row of `A`, then the maximum with `z`. -/
def rowBiasMax {R K : Nat} (A : (Mat R K).Idx → EReal) (B : (Mat 1 K).Idx → EReal) (z : EReal) : (Mat R K).Idx → EReal :=
  fun i => max (A i + B (ix2 (n0 := 1) (n1 := K) 0 (i 1))) z

/-- The vector operations `max (x + broadcast b) (splat z)` over an `R × K` block `x` and a `1 × K` row `b` (each first
    cast to its own shape, as a kernel body spells a broadcasting add) are `rowBiasMax x b z`. -/
theorem rowBiasMax_of_vector_ops {R K : Nat} (x : FVec Ideal (Mat R K) .f32) (b : FVec Ideal (Mat 1 K) .f32) (z : Ideal .f32)
    (h1 : (Mat R K).ShapeCasts (Mat R K)) (h2 : (Mat 1 K).ShapeCasts (Mat 1 K)) (h3 : (Mat 1 K).Broadcasts (Mat R K)) :
    maximumf (addf (shapeCast (Mat R K) x h1) (broadcastTo (Mat R K) (shapeCast (Mat 1 K) b h2) h3)) (broadcast (Mat R K) z)
      = rowBiasMax x b z := by
  rw [shapeCast_self, shapeCast_self]
  funext i
  obtain ⟨p, q, rfl⟩ : ∃ (p : Fin R) (q : Fin K), i = ix2 p q := ⟨i 0, i 1, eq_ix2 i⟩
  show max (x (ix2 p q) + broadcastTo (Mat R K) b h3 (ix2 p q)) z = max (x (ix2 p q) + b (ix2 (0 : Fin 1) q)) z
  rw [broadcastTo_1b_ab_apply b h3 p q]

/-- The host's spelling — a length-`K` vector made a row and then `R` rows by two `broadcast_in_dim`s, added, and the
    maximum with a splat constant — is `rowBiasMax` at the vector reshaped to one row. -/
theorem rowBiasMax_of_host_ops {R K : Nat} (A : FVec Ideal (Mat R K) .f32) (b : FVec Ideal (⟨1, ![K]⟩ : Shape) .f32) (zb : BitVec 32)
    (h1 : (⟨1, ![K]⟩ : Shape).BroadcastsInDim (Mat 1 K) ![1]) (h2 : (Mat 1 K).BroadcastsInDim (Mat R K) ![0, 1])
    (h3 : (⟨0, ![]⟩ : Shape).BroadcastsInDim (Mat R K) ![]) (h4 : (⟨1, ![K]⟩ : Shape).ShapeCasts (Mat 1 K)) :
    maximumf (addf A (broadcastInDim (Mat R K) ![0, 1] h2 (broadcastInDim (Mat 1 K) ![1] h1 b)))
        (broadcastInDim (Mat R K) ![] h3 (constant (F := Ideal) (⟨0, ![]⟩ : Shape) .f32 zb))
      = rowBiasMax A (shapeCast (Mat 1 K) b h4) (Ideal.ofBits .f32 zb) := by
  funext i
  obtain ⟨p, q, rfl⟩ : ∃ (p : Fin R) (q : Fin K), i = ix2 p q := ⟨i 0, i 1, eq_ix2 i⟩
  have e2 : broadcastInDim (Mat R K) ![0, 1] h2 (broadcastInDim (Mat 1 K) ![1] h1 b) (ix2 p q)
      = broadcastInDim (Mat 1 K) ![1] h1 b (ix2 (0 : Fin 1) q) :=
    broadcastInDim_apply ![0, 1] h2 _ (ix2 p q) (ix2 (0 : Fin 1) q) fun a => by
      match a with
      | ⟨0, _⟩ => rfl
      | ⟨1, _⟩ =>
        show q.val = if K = 1 then 0 else q.val
        split
        · have := q.isLt; omega
        · rfl
  have e1 : broadcastInDim (Mat 1 K) ![1] h1 b (ix2 (0 : Fin 1) q) = b (ix1 q) :=
    broadcastInDim_apply ![1] h1 b (ix2 (0 : Fin 1) q) (ix1 q) fun a => by
      match a with
      | ⟨0, _⟩ =>
        show q.val = if K = 1 then 0 else q.val
        split
        · have := q.isLt; omega
        · rfl
  have e3 : broadcastInDim (Mat R K) ![] h3 (constant (F := Ideal) (⟨0, ![]⟩ : Shape) .f32 zb) (ix2 p q) = Ideal.ofBits .f32 zb :=
    broadcastInDim_apply ![] h3 _ (ix2 p q) ix0 fun a => a.elim0
  show max (A (ix2 p q) + broadcastInDim (Mat R K) ![0, 1] h2 (broadcastInDim (Mat 1 K) ![1] h1 b) (ix2 p q))
      (broadcastInDim (Mat R K) ![] h3 (constant (F := Ideal) (⟨0, ![]⟩ : Shape) .f32 zb) (ix2 p q))
    = max (A (ix2 p q) + shapeCast (Mat 1 K) b h4 (ix2 (0 : Fin 1) q)) (Ideal.ofBits .f32 zb)
  rw [e2, e1, e3, shapeCast_a_1a_apply b h4 0 q]

end Cert.Linear

end
-- ==== Proof.LibDotLists.lean ====
/-
  GENERAL LEMMA: a dimension record whose axis lists are those of a plain matrix product contracts the left operand's
  columns with the right operand's rows.

  A dimension record for `[R,K] × [K,N] → [R,N]` carries six lists of axes. When they are the plain product's — the left
  operand's axis 1 contracted with the right operand's axis 0, the left operand's axis 0 and the right operand's axis 1
  kept in this order, no batch axis — the record reads, at result index `i` and contraction index `q`, the left
  operand at `(i 0, q)` and the right operand at `(q, i 1)`: the four coordinate equations (`Contracts`) under which a
  matrix unit's product into a zero accumulator and the host's `dot_general` are both the plain sum of products
  `matProd`. A record written out with literal lists meets the six hypotheses by `rfl`.
-/
import proofs.«153640_j84679575208613_2_alg».proof.Proof.LibMatProd
import Idealize.ShloMosaic.Lib.Pipeline.Value
import Idealize.ShloMosaic.Lib.ValueIdx

noncomputable section

namespace Cert.Linear

open Idealize.ShloMosaic Idealize.ShloMosaic.ValueIdx

/-- A dimension record whose axis lists are those of a plain product — the left operand's columns contracted with the
    right operand's rows, the left operand's rows and the right operand's columns kept in this order, no batch axis —
    reads its operands at `(i 0, q)` and `(q, i 1)`. -/
theorem contracts_of_lists {R K N : Nat} (d : DotDims (Mat R K) (Mat K N) (Mat R N))
    (h1 : d.lhsContracting = [1]) (h2 : d.rhsContracting = [0]) (h3 : d.lhsNonContracting = [0])
    (h4 : d.rhsNonContracting = [1]) (h5 : d.lhsBatch = []) (h6 : d.rhsBatch = []) : Contracts d where
  rank := by rw [d.rank_contr, h1]; rfl
  size := by
    rw [d.size_contr 0 (by rw [h1]; exact Nat.one_pos), List.getElem_of_eq h1]
    rfl
  lhs0 := fun i q => by
    unfold DotDims.lhsIdx
    rw [dif_neg (by rw [h5]; exact List.not_mem_nil), dif_pos (by rw [h3]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3])
  lhs1 := fun i q => d.lhsIdx_val_of_single h1 i q
  rhs0 := fun i q => d.rhsIdx_val_of_single h2 i q
  rhs1 := fun i q => by
    unfold DotDims.rhsIdx
    rw [dif_neg (by rw [h6]; exact List.not_mem_nil), dif_pos (by rw [h4]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3, h4])

end Cert.Linear

end
-- ==== Proof.LibDense.lean ====
/-
  GENERAL LEMMAS: a scaled-rows dense layer  max ((X · s) W + b) z  as one function of whole arrays, over the extended reals.

  For an `R × K` matrix `X`, a column `s` of `R` scale factors, a `K × N` weight matrix `W`, a bias row `B` and a
  floor `z`, the layer's output has entry `(r, q)` equal to

      max (∑ k, (X (r, k) · s r) · W (k, q) + B q) z.

  Row `r` of the output depends on row `r` of `X` and on `s r` only, besides the whole of `W` and `B`
  (`dense_of_rows`): this is what lets a grid that hands the layer 2000 rows at a time be compared with one product
  over all rows. Both spellings of the layer read as this function, with no finiteness hypothesis — neither changes the
  order of any sum or product:

  * `dense_of_vector_ops`: the vector operations of the kernel body — the scale column spread over the columns and
    multiplied in, the two narrowings of the float format (the identity on extended reals), the matrix unit's product
    accumulated into zero, the bias row spread over the rows and added, the maximum with a splat;
  * `dense_of_host_ops`: the host operations of the reference — the scale column spread by `broadcast_in_dim` and
    multiplied in, `dot_general`, the bias vector spread by two `broadcast_in_dim`s and added, the maximum with a
    splat constant.
-/
import proofs.«153640_j84679575208613_2_alg».proof.Proof.LibRowBlock
import proofs.«153640_j84679575208613_2_alg».proof.Proof.LibDotLists

noncomputable section

open scoped BigOperators

namespace Cert.Linear

open Idealize.ShloMosaic Idealize.ShloMosaic.ValueIdx

/-- Every row of `X` multiplied by that row's factor in the column `s`. -/
def scaleRows {R K : Nat} (X : (Mat R K).Idx → EReal) (s : (Mat R 1).Idx → EReal) : (Mat R K).Idx → EReal :=
  fun i => X i * s (ix2 (n0 := R) (n1 := 1) (i 0) 0)

/-- The dense half of a layer: rows scaled by `s`, times `W`, plus the bias row `B`, floored at `z`. -/
def dense {R K N : Nat} (X : (Mat R K).Idx → EReal) (s : (Mat R 1).Idx → EReal) (W : (Mat K N).Idx → EReal)
    (B : (Mat 1 N).Idx → EReal) (z : EReal) : (Mat R N).Idx → EReal :=
  rowBiasMax (matProd (scaleRows X s) W) B z

/-- Entry `j` of the layer over a block of rows is entry `i` of the layer over all rows, as soon as row `j 0` of the
    block is row `i 0` of the whole (in `X` and in the scale column) and column `j 1` is column `i 1` (in the weights
    and in the bias). -/
theorem dense_of_rows {R r K N n : Nat} (X : (Mat R K).Idx → EReal) (s : (Mat R 1).Idx → EReal)
    (W : (Mat K N).Idx → EReal) (B : (Mat 1 N).Idx → EReal)
    (x : (Mat r K).Idx → EReal) (s' : (Mat r 1).Idx → EReal) (w : (Mat K n).Idx → EReal) (b : (Mat 1 n).Idx → EReal)
    (z : EReal) (j : (Mat r n).Idx) (i : (Mat R N).Idx)
    (hx : ∀ k : Fin K, x (ix2 (n0 := r) (n1 := K) (j 0) k) = X (ix2 (n0 := R) (n1 := K) (i 0) k))
    (hs : s' (ix2 (n0 := r) (n1 := 1) (j 0) 0) = s (ix2 (n0 := R) (n1 := 1) (i 0) 0))
    (hw : ∀ k : Fin K, w (ix2 (n0 := K) (n1 := n) k (j 1)) = W (ix2 (n0 := K) (n1 := N) k (i 1)))
    (hb : b (ix2 (n0 := 1) (n1 := n) 0 (j 1)) = B (ix2 (n0 := 1) (n1 := N) 0 (i 1))) :
    dense x s' w b z j = dense X s W B z i := by
  unfold dense rowBiasMax
  rw [matProd_of_rows (scaleRows X s) W (scaleRows x s') w j i (fun k => ?_) hw, hb]
  show x (ix2 (j 0) k) * s' (ix2 (j 0) 0) = X (ix2 (i 0) k) * s (ix2 (i 0) 0)
  rw [hx k, hs]

/-- A `[a, 1]` column spread over `b` columns reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The kernel body's vector operations are the layer: the block `x` times the scale column spread over its columns,
    narrowed (the identity here), multiplied by the narrowed weights into a zero accumulator, plus the bias row spread
    over the rows, floored at the splat of `z`. -/
theorem dense_of_vector_ops {R K N : Nat} (d : DotDims (Mat R K) (Mat K N) (Mat R N)) (hd : Contracts d)
    (prec : Option ContractPrecision)
    (x : FVec Ideal (Mat R K) .f32) (s : FVec Ideal (Mat R 1) .f32) (w : FVec Ideal (Mat K N) .f32)
    (b : FVec Ideal (Mat 1 N) .f32) (z : Ideal .f32)
    (h1 : (Mat R K).ShapeCasts (Mat R K)) (h2 : (Mat R 1).ShapeCasts (Mat R 1)) (h3 : (Mat R 1).Broadcasts (Mat R K))
    (h4 : (Mat K N).ShapeCasts (Mat K N)) (h5 : (Mat 1 N).ShapeCasts (Mat 1 N)) (h6 : (Mat 1 N).Broadcasts (Mat R N))
    (hb1 : FTy.bf16.bits < FTy.f32.bits) :
    maximumf
        (addf
          (FloatOps.matmul d prec
            (truncf .bf16 (mulf (shapeCast (Mat R K) x h1) (broadcastTo (Mat R K) (shapeCast (Mat R 1) s h2) h3)) hb1)
            (truncf .bf16 (shapeCast (Mat K N) w h4) hb1)
            (constant (F := Ideal) (Mat R N) .f32 0x00000000#32))
          (broadcastTo (Mat R N) (shapeCast (Mat 1 N) b h5) h6))
        (broadcast (Mat R N) z)
      = dense x s w b z := by
  rw [shapeCast_self, shapeCast_self, shapeCast_self, shapeCast_self, matmul_zero_eq hd]
  funext i
  obtain ⟨p, q, rfl⟩ : ∃ (p : Fin R) (q : Fin N), i = ix2 p q := ⟨i 0, i 1, eq_ix2 i⟩
  show max (matProd _ _ (ix2 p q) + broadcastTo (Mat R N) b h6 (ix2 p q)) z
      = max (matProd (scaleRows x s) w (ix2 p q) + b (ix2 (0 : Fin 1) q)) z
  rw [broadcastTo_1b_ab_apply b h6 p q]
  refine congrArg (fun u => max (u + b (ix2 (0 : Fin 1) q)) z) ?_
  unfold matProd
  refine Finset.sum_congr rfl fun k _ => ?_
  show x (ix2 p k) * broadcastTo (Mat R K) s h3 (ix2 p k) * w (ix2 k q) = x (ix2 p k) * s (ix2 p 0) * w (ix2 k q)
  rw [broadcastTo_a1_ab_apply s h3 p k]

/-- The host's operations are the layer: `A` times the scale column spread by `broadcast_in_dim`, `dot_general` with
    the weights, plus the bias vector spread by two `broadcast_in_dim`s, floored at a splat constant — at the bias
    vector reshaped to one row. -/
theorem dense_of_host_ops {R K N : Nat} (d : DotDims (Mat R K) (Mat K N) (Mat R N)) (hd : Contracts d)
    (prec : Option ContractPrecision) (sched : HostSchedule)
    (A : FVec Ideal (Mat R K) .f32) (s : FVec Ideal (Mat R 1) .f32) (W : FVec Ideal (Mat K N) .f32)
    (b : FVec Ideal (⟨1, ![N]⟩ : Shape) .f32) (zb : BitVec 32)
    (h0 : (Mat R 1).BroadcastsInDim (Mat R K) ![0, 1])
    (h1 : (⟨1, ![N]⟩ : Shape).BroadcastsInDim (Mat 1 N) ![1]) (h2 : (Mat 1 N).BroadcastsInDim (Mat R N) ![0, 1])
    (h3 : (⟨0, ![]⟩ : Shape).BroadcastsInDim (Mat R N) ![]) (h4 : (⟨1, ![N]⟩ : Shape).ShapeCasts (Mat 1 N)) :
    maximumf
        (addf (FloatOps.dotGeneral d prec sched (mulf A (broadcastInDim (Mat R K) ![0, 1] h0 s)) W)
          (broadcastInDim (Mat R N) ![0, 1] h2 (broadcastInDim (Mat 1 N) ![1] h1 b)))
        (broadcastInDim (Mat R N) ![] h3 (constant (F := Ideal) (⟨0, ![]⟩ : Shape) .f32 zb))
      = dense A s W (shapeCast (Mat 1 N) b h4) (Ideal.ofBits .f32 zb) := by
  rw [rowBiasMax_of_host_ops _ b zb h1 h2 h3 h4, dotGeneral_eq hd]
  unfold dense
  refine congrArg (fun u => rowBiasMax (matProd u W) _ _) ?_
  funext i
  obtain ⟨p, k, rfl⟩ : ∃ (p : Fin R) (k : Fin K), i = ix2 p k := ⟨i 0, i 1, eq_ix2 i⟩
  show A (ix2 p k) * broadcastInDim (Mat R K) ![0, 1] h0 s (ix2 p k) = A (ix2 p k) * s (ix2 p 0)
  refine congrArg (A (ix2 p k) * ·) ?_
  refine broadcastInDim_apply ![0, 1] h0 s (ix2 p k) (ix2 p (0 : Fin 1)) fun a => ?_
  match a with
  | ⟨0, _⟩ =>
    show p.val = if R = 1 then 0 else p.val
    split
    · have := p.isLt; omega
    · rfl
  | ⟨1, _⟩ => rfl

end Cert.Linear

end
-- ==== Proof.Call0.lean ====
/-
  What pallas_call 0 leaves in its output array, as one function of the arrays it is handed.

  The call runs the dense half of a layer over 25 grid points; point `t` is handed rows `2000·t … 2000·t + 1999` of the
  aggregated features (a `2000 × 128` block) and of the scale column (a `2000 × 1` block), the whole `128 × 128`
  weight matrix and the whole `1 × 128` bias row, and writes rows `2000·t … 2000·t + 1999` of the result. A row of the
  layer's output depends on that row of the features and of the scale column only (`Cert.Linear.dense_of_rows`), so
  what point `t` writes back is block `t` of the layer applied to the WHOLE arrays (`flushed_eq`); the 25 blocks tile
  the `50000 × 128` result (`cover`: row `r` lies in block `r / 2000`); hence the array ends holding the layer of the
  whole arrays (`final`). Stated for any contents `V` of the buffers at the call's entry.
-/
import proofs.«153640_j84679575208613_2_alg».proof.Proof.Gen.KernelIdeal.Frame
import proofs.«153640_j84679575208613_2_alg».proof.Proof.LibDense
import Idealize.ShloMosaic.Lib.Pipeline.Value

set_option maxRecDepth 16384

noncomputable section

namespace Cert.KernelIdeal.Call0

open Cert.KernelIdeal Cert.KernelIdeal.Gen Cert.Linear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The floor of the layer: the float word zero read as an extended real. -/
abbrev floor : Ideal .f32 := Scalar.ofBits .f32 0x00000000#32

theorem origin : (![0, 0] : Fin 2 → Nat) = fun _ => 0 := funext fun a => by fin_cases a <;> rfl

/-- The matrix unit's dimension numbers contract the block's columns with the weights' rows. -/
theorem contracts : Contracts (R := 2000) (K := 128) (N := 128) dot_S2000x128_S128x128_S2000x128_1_0_0_1_n_n :=
  contracts_of_lists _ rfl rfl rfl rfl rfl rfl

/-- The body's one stored value is the layer of the four blocks it loads. -/
theorem payload_eq (x0 : Vec Ideal S2000x128 .f32) (x1 : Vec Ideal S2000x1 .f32) (x2 : Vec Ideal S128x128 .f32)
    (x3 : Vec Ideal S1x128 .f32) :
    k0_pay1 x0 x1 x2 x3 = dense (R := 2000) (K := 128) (N := 128) x0 x1 x2 x3 floor :=
  dense_of_vector_ops (R := 2000) (K := 128) (N := 128) _ contracts none x0 x1 x2 x3 floor _ _ _ _ _ _ _

/-- The printed index maps over the grid: the feature, scale and result windows sit at block row `t`, column 0; the
    weight and bias windows at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of the layer of the whole arrays as the call finds them. -/
theorem flushed_eq (c : Dev nD) (t : Fin cfg0.N) :
    (dat0 V c).flushed 4 t = ((cfg0.win 4).blk t).view.read (Elt Ideal)
      (dense (R := 50000) (K := 128) (N := 128) (V c main_v24) (V c main_v12) (V c main_v26) (V c main_v29) floor) := by
  show (cfg0.win 4).cut (grid0.coords t) ((dat0 V c).after 4 t) = _
  rw [after0_4]
  unfold out0_4
  rw [View.canon_unit_zero origin]
  simp only [View.ld_unit_zero (S := S2000x128) origin, View.ld_unit_zero (S := S2000x1) origin,
    View.ld_unit_zero (S := S128x128) origin, View.ld_unit_zero (S := S1x128) origin]
  rw [payload_eq]
  obtain ⟨e00, e01, e10, e11, e20, e21, e30, e31, e40, e41⟩ := index_maps t
  funext j
  show dense (R := 2000) (K := 128) (N := 128) (iblk0 V c 0 t) (iblk0 V c 1 t) (iblk0 V c 2 t) (iblk0 V c 3 t) floor j
    = dense (R := 50000) (K := 128) (N := 128) (V c main_v24) (V c main_v12) (V c main_v26) (V c main_v29) floor
        (((cfg0.win 4).blk t).view.emb j)
  refine dense_of_rows (R := 50000) (r := 2000) (K := 128) (N := 128) (n := 128)
    (V c main_v24) (V c main_v12) (V c main_v26) (V c main_v29)
    (iblk0 V c 0 t) (iblk0 V c 1 t) (iblk0 V c 2 t) (iblk0 V c 3 t) floor j (((cfg0.win 4).blk t).view.emb j)
    (fun k => ?_) ?_ (fun k => ?_) ?_
  · show V c main_v24 (((cfg0.win 0).blk t).view.emb (ix2 (j 0) k)) = V c main_v24 (ix2 ((((cfg0.win 4).blk t).view.emb j) 0) k)
    refine congrArg (V c main_v24) (funext fun a => Fin.ext ?_)
    match a with
    | ⟨0, _⟩ =>
      show win0_0.index t (0 : Fin 2) * 2000 + 1 * (j 0).val = win0_4.index t (0 : Fin 2) * 2000 + 1 * (j 0).val
      omega
    | ⟨1, _⟩ =>
      show win0_0.index t (1 : Fin 2) * 128 + 1 * k.val = k.val
      omega
  · show V c main_v12 (((cfg0.win 1).blk t).view.emb (ix2 (j 0) 0)) = V c main_v12 (ix2 ((((cfg0.win 4).blk t).view.emb j) 0) 0)
    refine congrArg (V c main_v12) (funext fun a => Fin.ext ?_)
    match a with
    | ⟨0, _⟩ =>
      show win0_1.index t (0 : Fin 2) * 2000 + 1 * (j 0).val = win0_4.index t (0 : Fin 2) * 2000 + 1 * (j 0).val
      omega
    | ⟨1, _⟩ =>
      show win0_1.index t (1 : Fin 2) * 1 + 1 * 0 = 0
      omega
  · show V c main_v26 (((cfg0.win 2).blk t).view.emb (ix2 k (j 1))) = V c main_v26 (ix2 k ((((cfg0.win 4).blk t).view.emb j) 1))
    refine congrArg (V c main_v26) (funext fun a => Fin.ext ?_)
    match a with
    | ⟨0, _⟩ =>
      show win0_2.index t (0 : Fin 2) * 128 + 1 * k.val = k.val
      omega
    | ⟨1, _⟩ =>
      show win0_2.index t (1 : Fin 2) * 128 + 1 * (j 1).val = win0_4.index t (1 : Fin 2) * 128 + 1 * (j 1).val
      omega
  · show V c main_v29 (((cfg0.win 3).blk t).view.emb (ix2 0 (j 1))) = V c main_v29 (ix2 0 ((((cfg0.win 4).blk t).view.emb j) 1))
    refine congrArg (V c main_v29) (funext fun a => Fin.ext ?_)
    match a with
    | ⟨0, _⟩ =>
      show win0_3.index t (0 : Fin 2) * 1 + 1 * 0 = 0
      omega
    | ⟨1, _⟩ =>
      show win0_3.index t (1 : Fin 2) * 128 + 1 * (j 1).val = win0_4.index t (1 : Fin 2) * 128 + 1 * (j 1).val
      omega

/-- An index of the result is in point `t`'s block iff each coordinate is in the block's range on its axis. -/
theorem mem_block (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v30).slice (win0_4.rect t)).set ↔ _
  rw [View.set_slice_whole, Rect.mem_set_unit]
  exact Iff.rfl

/-- The 25 blocks tile the result: row `r` is written back by point `r / 2000`. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  have ht : (i 0).val / 2000 < cfg0.N := by rw [hN]; omega
  refine ⟨⟨(i 0).val / 2000, ht⟩, flush0_4 _, ?_⟩
  rw [mem_block]
  obtain ⟨e00, e01, e10, e11, e20, e21, e30, e31, e40, e41⟩ := index_maps ⟨(i 0).val / 2000, ht⟩
  intro a
  match a with
  | ⟨0, _⟩ =>
    show win0_4.index ⟨(i 0).val / 2000, ht⟩ (0 : Fin 2) * 2000 ≤ (i 0).val
      ∧ (i 0).val < win0_4.index ⟨(i 0).val / 2000, ht⟩ (0 : Fin 2) * 2000 + 2000
    rw [e40]
    show (i 0).val / 2000 * 2000 ≤ (i 0).val ∧ (i 0).val < (i 0).val / 2000 * 2000 + 2000
    omega
  | ⟨1, _⟩ =>
    show win0_4.index ⟨(i 0).val / 2000, ht⟩ (1 : Fin 2) * 128 ≤ (i 1).val
      ∧ (i 1).val < win0_4.index ⟨(i 0).val / 2000, ht⟩ (1 : Fin 2) * 128 + 128
    rw [e41]
    omega

/-- THE RESULT ARRAY after the call: the layer of the whole arrays the call was handed. -/
theorem final (c : Dev nD) :
    (dat0 V c).arrAt 4 cfg0.N
      = dense (R := 50000) (K := 128) (N := 128) (V c main_v24) (V c main_v12) (V c main_v26) (V c main_v29) floor :=
  (dat0 V c).arrAt_eq_of_cover 4 _ (fun t _ => flushed_eq V c t) cover

end Cert.KernelIdeal.Call0

end
-- ==== Proof.Call1.lean ====
/-
  What pallas_call 1 leaves in its output array, as one function of the arrays it is handed.

  The call runs the dense half of a layer over 25 grid points; point `t` is handed rows `2000·t … 2000·t + 1999` of the
  aggregated features (a `2000 × 128` block) and of the scale column (a `2000 × 1` block), the whole `128 × 128`
  weight matrix and the whole `1 × 128` bias row, and writes rows `2000·t … 2000·t + 1999` of the result. A row of the
  layer's output depends on that row of the features and of the scale column only (`Cert.Linear.dense_of_rows`), so
  what point `t` writes back is block `t` of the layer applied to the WHOLE arrays (`flushed_eq`); the 25 blocks tile
  the `50000 × 128` result (`cover`: row `r` lies in block `r / 2000`); hence the array ends holding the layer of the
  whole arrays (`final`). Stated for any contents `V` of the buffers at the call's entry.
-/
import proofs.«153640_j84679575208613_2_alg».proof.Proof.Gen.KernelIdeal.Frame
import proofs.«153640_j84679575208613_2_alg».proof.Proof.LibDense
import Idealize.ShloMosaic.Lib.Pipeline.Value

set_option maxRecDepth 16384

noncomputable section

namespace Cert.KernelIdeal.Call1

open Cert.KernelIdeal Cert.KernelIdeal.Gen Cert.Linear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The floor of the layer: the float word zero read as an extended real. -/
abbrev floor : Ideal .f32 := Scalar.ofBits .f32 0x00000000#32

theorem origin : (![0, 0] : Fin 2 → Nat) = fun _ => 0 := funext fun a => by fin_cases a <;> rfl

/-- The matrix unit's dimension numbers contract the block's columns with the weights' rows. -/
theorem contracts : Contracts (R := 2000) (K := 128) (N := 128) dot_S2000x128_S128x128_S2000x128_1_0_0_1_n_n :=
  contracts_of_lists _ rfl rfl rfl rfl rfl rfl

/-- The body's one stored value is the layer of the four blocks it loads. -/
theorem payload_eq (x0 : Vec Ideal S2000x128 .f32) (x1 : Vec Ideal S2000x1 .f32) (x2 : Vec Ideal S128x128 .f32)
    (x3 : Vec Ideal S1x128 .f32) :
    k1_pay1 x0 x1 x2 x3 = dense (R := 2000) (K := 128) (N := 128) x0 x1 x2 x3 floor :=
  dense_of_vector_ops (R := 2000) (K := 128) (N := 128) _ contracts none x0 x1 x2 x3 floor _ _ _ _ _ _ _

/-- The printed index maps over the grid: the feature, scale and result windows sit at block row `t`, column 0; the
    weight and bias windows at block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of the layer of the whole arrays as the call finds them. -/
theorem flushed_eq (c : Dev nD) (t : Fin cfg1.N) :
    (dat1 V c).flushed 4 t = ((cfg1.win 4).blk t).view.read (Elt Ideal)
      (dense (R := 50000) (K := 128) (N := 128) (V c main_v42) (V c main_v12) (V c main_v44) (V c main_v47) floor) := by
  show (cfg1.win 4).cut (grid1.coords t) ((dat1 V c).after 4 t) = _
  rw [after1_4]
  unfold out1_4
  rw [View.canon_unit_zero origin]
  simp only [View.ld_unit_zero (S := S2000x128) origin, View.ld_unit_zero (S := S2000x1) origin,
    View.ld_unit_zero (S := S128x128) origin, View.ld_unit_zero (S := S1x128) origin]
  rw [payload_eq]
  obtain ⟨e00, e01, e10, e11, e20, e21, e30, e31, e40, e41⟩ := index_maps t
  funext j
  show dense (R := 2000) (K := 128) (N := 128) (iblk1 V c 0 t) (iblk1 V c 1 t) (iblk1 V c 2 t) (iblk1 V c 3 t) floor j
    = dense (R := 50000) (K := 128) (N := 128) (V c main_v42) (V c main_v12) (V c main_v44) (V c main_v47) floor
        (((cfg1.win 4).blk t).view.emb j)
  refine dense_of_rows (R := 50000) (r := 2000) (K := 128) (N := 128) (n := 128)
    (V c main_v42) (V c main_v12) (V c main_v44) (V c main_v47)
    (iblk1 V c 0 t) (iblk1 V c 1 t) (iblk1 V c 2 t) (iblk1 V c 3 t) floor j (((cfg1.win 4).blk t).view.emb j)
    (fun k => ?_) ?_ (fun k => ?_) ?_
  · show V c main_v42 (((cfg1.win 0).blk t).view.emb (ix2 (j 0) k)) = V c main_v42 (ix2 ((((cfg1.win 4).blk t).view.emb j) 0) k)
    refine congrArg (V c main_v42) (funext fun a => Fin.ext ?_)
    match a with
    | ⟨0, _⟩ =>
      show win1_0.index t (0 : Fin 2) * 2000 + 1 * (j 0).val = win1_4.index t (0 : Fin 2) * 2000 + 1 * (j 0).val
      omega
    | ⟨1, _⟩ =>
      show win1_0.index t (1 : Fin 2) * 128 + 1 * k.val = k.val
      omega
  · show V c main_v12 (((cfg1.win 1).blk t).view.emb (ix2 (j 0) 0)) = V c main_v12 (ix2 ((((cfg1.win 4).blk t).view.emb j) 0) 0)
    refine congrArg (V c main_v12) (funext fun a => Fin.ext ?_)
    match a with
    | ⟨0, _⟩ =>
      show win1_1.index t (0 : Fin 2) * 2000 + 1 * (j 0).val = win1_4.index t (0 : Fin 2) * 2000 + 1 * (j 0).val
      omega
    | ⟨1, _⟩ =>
      show win1_1.index t (1 : Fin 2) * 1 + 1 * 0 = 0
      omega
  · show V c main_v44 (((cfg1.win 2).blk t).view.emb (ix2 k (j 1))) = V c main_v44 (ix2 k ((((cfg1.win 4).blk t).view.emb j) 1))
    refine congrArg (V c main_v44) (funext fun a => Fin.ext ?_)
    match a with
    | ⟨0, _⟩ =>
      show win1_2.index t (0 : Fin 2) * 128 + 1 * k.val = k.val
      omega
    | ⟨1, _⟩ =>
      show win1_2.index t (1 : Fin 2) * 128 + 1 * (j 1).val = win1_4.index t (1 : Fin 2) * 128 + 1 * (j 1).val
      omega
  · show V c main_v47 (((cfg1.win 3).blk t).view.emb (ix2 0 (j 1))) = V c main_v47 (ix2 0 ((((cfg1.win 4).blk t).view.emb j) 1))
    refine congrArg (V c main_v47) (funext fun a => Fin.ext ?_)
    match a with
    | ⟨0, _⟩ =>
      show win1_3.index t (0 : Fin 2) * 1 + 1 * 0 = 0
      omega
    | ⟨1, _⟩ =>
      show win1_3.index t (1 : Fin 2) * 128 + 1 * (j 1).val = win1_4.index t (1 : Fin 2) * 128 + 1 * (j 1).val
      omega

/-- An index of the result is in point `t`'s block iff each coordinate is in the block's range on its axis. -/
theorem mem_block (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v48).slice (win1_4.rect t)).set ↔ _
  rw [View.set_slice_whole, Rect.mem_set_unit]
  exact Iff.rfl

/-- The 25 blocks tile the result: row `r` is written back by point `r / 2000`. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  have ht : (i 0).val / 2000 < cfg1.N := by rw [hN]; omega
  refine ⟨⟨(i 0).val / 2000, ht⟩, flush1_4 _, ?_⟩
  rw [mem_block]
  obtain ⟨e00, e01, e10, e11, e20, e21, e30, e31, e40, e41⟩ := index_maps ⟨(i 0).val / 2000, ht⟩
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [e40]
    show (i 0).val / 2000 * 2000 ≤ (i 0).val ∧ (i 0).val < (i 0).val / 2000 * 2000 + 2000
    omega
  | ⟨1, _⟩ =>
    show win1_4.index ⟨(i 0).val / 2000, ht⟩ (1 : Fin 2) * 128 ≤ (i 1).val
      ∧ (i 1).val < win1_4.index ⟨(i 0).val / 2000, ht⟩ (1 : Fin 2) * 128 + 128
    rw [e41]
    omega

/-- THE RESULT ARRAY after the call: the layer of the whole arrays the call was handed. -/
theorem final (c : Dev nD) :
    (dat1 V c).arrAt 4 cfg1.N
      = dense (R := 50000) (K := 128) (N := 128) (V c main_v42) (V c main_v12) (V c main_v44) (V c main_v47) floor :=
  (dat1 V c).arrAt_eq_of_cover 4 _ (fun t _ => flushed_eq V c t) cover

end Cert.KernelIdeal.Call1

end
-- ==== Proof.Call2.lean ====
/-
  What pallas_call 2 leaves in its output array, as one function of the arrays it is handed.

  The call runs the dense half of a layer over 25 grid points; point `t` is handed rows `2000·t … 2000·t + 1999` of the
  aggregated features (a `2000 × 128` block) and of the scale column (a `2000 × 1` block), the whole `128 × 128`
  weight matrix and the whole `1 × 128` bias row, and writes rows `2000·t … 2000·t + 1999` of the result. A row of the
  layer's output depends on that row of the features and of the scale column only (`Cert.Linear.dense_of_rows`), so
  what point `t` writes back is block `t` of the layer applied to the WHOLE arrays (`flushed_eq`); the 25 blocks tile
  the `50000 × 128` result (`cover`: row `r` lies in block `r / 2000`); hence the array ends holding the layer of the
  whole arrays (`final`). Stated for any contents `V` of the buffers at the call's entry.
-/
import proofs.«153640_j84679575208613_2_alg».proof.Proof.Gen.KernelIdeal.Frame
import proofs.«153640_j84679575208613_2_alg».proof.Proof.LibDense
import Idealize.ShloMosaic.Lib.Pipeline.Value

set_option maxRecDepth 16384

noncomputable section

namespace Cert.KernelIdeal.Call2

open Cert.KernelIdeal Cert.KernelIdeal.Gen Cert.Linear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The floor of the layer: the float word zero read as an extended real. -/
abbrev floor : Ideal .f32 := Scalar.ofBits .f32 0x00000000#32

theorem origin : (![0, 0] : Fin 2 → Nat) = fun _ => 0 := funext fun a => by fin_cases a <;> rfl

/-- The matrix unit's dimension numbers contract the block's columns with the weights' rows. -/
theorem contracts : Contracts (R := 2000) (K := 128) (N := 128) dot_S2000x128_S128x128_S2000x128_1_0_0_1_n_n :=
  contracts_of_lists _ rfl rfl rfl rfl rfl rfl

/-- The body's one stored value is the layer of the four blocks it loads. -/
theorem payload_eq (x0 : Vec Ideal S2000x128 .f32) (x1 : Vec Ideal S2000x1 .f32) (x2 : Vec Ideal S128x128 .f32)
    (x3 : Vec Ideal S1x128 .f32) :
    k2_pay1 x0 x1 x2 x3 = dense (R := 2000) (K := 128) (N := 128) x0 x1 x2 x3 floor :=
  dense_of_vector_ops (R := 2000) (K := 128) (N := 128) _ contracts none x0 x1 x2 x3 floor _ _ _ _ _ _ _

/-- The printed index maps over the grid: the feature, scale and result windows sit at block row `t`, column 0; the
    weight and bias windows at block (0, 0). -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- WHAT POINT `t` WRITES BACK is block `t` of the layer of the whole arrays as the call finds them. -/
theorem flushed_eq (c : Dev nD) (t : Fin cfg2.N) :
    (dat2 V c).flushed 4 t = ((cfg2.win 4).blk t).view.read (Elt Ideal)
      (dense (R := 50000) (K := 128) (N := 128) (V c main_v60) (V c main_v12) (V c main_v62) (V c main_v65) floor) := by
  show (cfg2.win 4).cut (grid2.coords t) ((dat2 V c).after 4 t) = _
  rw [after2_4]
  unfold out2_4
  rw [View.canon_unit_zero origin]
  simp only [View.ld_unit_zero (S := S2000x128) origin, View.ld_unit_zero (S := S2000x1) origin,
    View.ld_unit_zero (S := S128x128) origin, View.ld_unit_zero (S := S1x128) origin]
  rw [payload_eq]
  obtain ⟨e00, e01, e10, e11, e20, e21, e30, e31, e40, e41⟩ := index_maps t
  funext j
  show dense (R := 2000) (K := 128) (N := 128) (iblk2 V c 0 t) (iblk2 V c 1 t) (iblk2 V c 2 t) (iblk2 V c 3 t) floor j
    = dense (R := 50000) (K := 128) (N := 128) (V c main_v60) (V c main_v12) (V c main_v62) (V c main_v65) floor
        (((cfg2.win 4).blk t).view.emb j)
  refine dense_of_rows (R := 50000) (r := 2000) (K := 128) (N := 128) (n := 128)
    (V c main_v60) (V c main_v12) (V c main_v62) (V c main_v65)
    (iblk2 V c 0 t) (iblk2 V c 1 t) (iblk2 V c 2 t) (iblk2 V c 3 t) floor j (((cfg2.win 4).blk t).view.emb j)
    (fun k => ?_) ?_ (fun k => ?_) ?_
  · show V c main_v60 (((cfg2.win 0).blk t).view.emb (ix2 (j 0) k)) = V c main_v60 (ix2 ((((cfg2.win 4).blk t).view.emb j) 0) k)
    refine congrArg (V c main_v60) (funext fun a => Fin.ext ?_)
    match a with
    | ⟨0, _⟩ =>
      show win2_0.index t (0 : Fin 2) * 2000 + 1 * (j 0).val = win2_4.index t (0 : Fin 2) * 2000 + 1 * (j 0).val
      omega
    | ⟨1, _⟩ =>
      show win2_0.index t (1 : Fin 2) * 128 + 1 * k.val = k.val
      omega
  · show V c main_v12 (((cfg2.win 1).blk t).view.emb (ix2 (j 0) 0)) = V c main_v12 (ix2 ((((cfg2.win 4).blk t).view.emb j) 0) 0)
    refine congrArg (V c main_v12) (funext fun a => Fin.ext ?_)
    match a with
    | ⟨0, _⟩ =>
      show win2_1.index t (0 : Fin 2) * 2000 + 1 * (j 0).val = win2_4.index t (0 : Fin 2) * 2000 + 1 * (j 0).val
      omega
    | ⟨1, _⟩ =>
      show win2_1.index t (1 : Fin 2) * 1 + 1 * 0 = 0
      omega
  · show V c main_v62 (((cfg2.win 2).blk t).view.emb (ix2 k (j 1))) = V c main_v62 (ix2 k ((((cfg2.win 4).blk t).view.emb j) 1))
    refine congrArg (V c main_v62) (funext fun a => Fin.ext ?_)
    match a with
    | ⟨0, _⟩ =>
      show win2_2.index t (0 : Fin 2) * 128 + 1 * k.val = k.val
      omega
    | ⟨1, _⟩ =>
      show win2_2.index t (1 : Fin 2) * 128 + 1 * (j 1).val = win2_4.index t (1 : Fin 2) * 128 + 1 * (j 1).val
      omega
  · show V c main_v65 (((cfg2.win 3).blk t).view.emb (ix2 0 (j 1))) = V c main_v65 (ix2 0 ((((cfg2.win 4).blk t).view.emb j) 1))
    refine congrArg (V c main_v65) (funext fun a => Fin.ext ?_)
    match a with
    | ⟨0, _⟩ =>
      show win2_3.index t (0 : Fin 2) * 1 + 1 * 0 = 0
      omega
    | ⟨1, _⟩ =>
      show win2_3.index t (1 : Fin 2) * 128 + 1 * (j 1).val = win2_4.index t (1 : Fin 2) * 128 + 1 * (j 1).val
      omega

/-- An index of the result is in point `t`'s block iff each coordinate is in the block's range on its axis. -/
theorem mem_block (t : Fin cfg2.N) (i : S50000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v66).slice (win2_4.rect t)).set ↔ _
  rw [View.set_slice_whole, Rect.mem_set_unit]
  exact Iff.rfl

/-- The 25 blocks tile the result: row `r` is written back by point `r / 2000`. -/
theorem cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 25 := N_2
  have ht : (i 0).val / 2000 < cfg2.N := by rw [hN]; omega
  refine ⟨⟨(i 0).val / 2000, ht⟩, flush2_4 _, ?_⟩
  rw [mem_block]
  obtain ⟨e00, e01, e10, e11, e20, e21, e30, e31, e40, e41⟩ := index_maps ⟨(i 0).val / 2000, ht⟩
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    rw [e40]
    show (i 0).val / 2000 * 2000 ≤ (i 0).val ∧ (i 0).val < (i 0).val / 2000 * 2000 + 2000
    omega
  | ⟨1, _⟩ =>
    show win2_4.index ⟨(i 0).val / 2000, ht⟩ (1 : Fin 2) * 128 ≤ (i 1).val
      ∧ (i 1).val < win2_4.index ⟨(i 0).val / 2000, ht⟩ (1 : Fin 2) * 128 + 128
    rw [e41]
    omega

/-- THE RESULT ARRAY after the call: the layer of the whole arrays the call was handed. -/
theorem final (c : Dev nD) :
    (dat2 V c).arrAt 4 cfg2.N
      = dense (R := 50000) (K := 128) (N := 128) (V c main_v60) (V c main_v12) (V c main_v62) (V c main_v65) floor :=
  (dat2 V c).arrAt_eq_of_cover 4 _ (fun t _ => flushed_eq V c t) cover

end Cert.KernelIdeal.Call2

end
-- ==== Proof.Spec.lean ====
/-
  THE SPECIFICATION: what both programs compute, as one function of the six argument arrays, over the extended reals.

  A three-layer graph convolution with symmetric degree normalisation, then a per-graph mean:

  * `normCol e`  — for an endpoint list `e` of the 800000 edges, the column whose entry `v` is
                    `(max 1 (number of edges with endpoint v))^(-1/2)`;
  * `agg h s src dst` — scale row `v` of `h` by `s v`, read the scaled row `src e` for every edge `e` (an index below
                    zero counted from the end), and add it into row `dst e` of a zero matrix;
  * `Cert.Linear.dense A s W B z` — rows of `A` scaled by `s`, times `W`, plus the bias row `B`, floored at `z`;
  * `layer`      — `dense` of `agg`, with the layer's slice of the weights and of the biases;
  * `graphMean h g`   — the rows of `h` summed per graph id and divided by `max 1 (number of nodes of the graph)`.

  `result` composes them. The gathers, the accumulating scatters, the reciprocal square root and the quotient are kept
  as the host operations they are: both programs apply the same ones to the same operands, so nothing here opens them.
-/
import proofs.«153640_j84679575208613_2_alg».proof.KernelIdeal
import proofs.«153640_j84679575208613_2_alg».proof.Proof.Gen.KernelIdeal
import proofs.«153640_j84679575208613_2_alg».proof.Proof.LibDense
import Idealize.ShloMosaic.PureOps.Ideal

noncomputable section

namespace Cert.Spec

open Cert.KernelIdeal Cert.KernelIdeal.Facts₀ Cert.Linear Idealize.ShloMosaic

/-- The contents of a float array of shape `s`, and of a 32-bit integer array. -/
abbrev F32 (s : Shape) : Type := (⟨s, .f32⟩ : BufTy).Contents (Elt Ideal)
abbrev I32 (s : Shape) : Type := (⟨s, .i32⟩ : BufTy).Contents (Elt Ideal)

/-- The float word zero as an extended real: the floor of every layer. -/
abbrev floor : Ideal .f32 := Scalar.ofBits .f32 0x00000000#32

/-- `(max 1 deg)^(-1/2)` as a column, `deg v` the number of edges whose endpoint in `e` is `v`. -/
def normCol (e : I32 S800000) : F32 S50000x1 :=
  broadcastInDim S50000x1 ![0] bcast_S50000_S50000x1_0
    (Host.rsqrt
      (maximumf (broadcastInDim S50000 ![] bcast_S_S50000 (constant (F := Ideal) S_ .f32 0x3F800000#32))
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 e)
          (broadcastInDim S800000 ![] bcast_S_S800000 (constant (F := Ideal) S_ .f32 0x3F800000#32)))))

/-- The edges' source nodes as gather indices: an index below zero counts from the end. -/
def gatherIdx (src : I32 S800000) : I32 S800000x1 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Neighbourhood sums: rows of `h` scaled by `s`, row `src e` added into row `dst e` for every edge `e`. -/
def agg (h : F32 S50000x128) (s : F32 S50000x1) (src dst : I32 S800000) : F32 S50000x128 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128
      (mulf h (broadcastInDim S50000x128 ![0, 1] bcast_S50000x1_S50000x128_0_1 s)) (gatherIdx src))

/-- Layer 0's weight matrix, bias vector and bias row. -/
def wMat0 (W : F32 S3x128x128) : F32 S128x128 :=
  shapeCast S128x128 (extractStridedSlice S1x128x128 ![0, 0, 0] W slices_S3x128x128_S1x128x128_0_0_0) shapeCasts_S1x128x128_S128x128
def bVec0 (b : F32 S3x128) : F32 S128 :=
  shapeCast S128 (extractStridedSlice S1x128 ![0, 0] b slices_S3x128_S1x128_0_0) shapeCasts_S1x128_S128
def bRow0 (b : F32 S3x128) : F32 S1x128 := shapeCast S1x128 (bVec0 b) shapeCasts_S128_S1x128

/-- Layer 1's. -/
def wMat1 (W : F32 S3x128x128) : F32 S128x128 :=
  shapeCast S128x128 (extractStridedSlice S1x128x128 ![1, 0, 0] W slices_S3x128x128_S1x128x128_1_0_0) shapeCasts_S1x128x128_S128x128
def bVec1 (b : F32 S3x128) : F32 S128 :=
  shapeCast S128 (extractStridedSlice S1x128 ![1, 0] b slices_S3x128_S1x128_1_0) shapeCasts_S1x128_S128
def bRow1 (b : F32 S3x128) : F32 S1x128 := shapeCast S1x128 (bVec1 b) shapeCasts_S128_S1x128

/-- Layer 2's. -/
def wMat2 (W : F32 S3x128x128) : F32 S128x128 :=
  shapeCast S128x128 (extractStridedSlice S1x128x128 ![2, 0, 0] W slices_S3x128x128_S1x128x128_2_0_0) shapeCasts_S1x128x128_S128x128
def bVec2 (b : F32 S3x128) : F32 S128 :=
  shapeCast S128 (extractStridedSlice S1x128 ![2, 0] b slices_S3x128_S1x128_2_0) shapeCasts_S1x128_S128
def bRow2 (b : F32 S3x128) : F32 S1x128 := shapeCast S1x128 (bVec2 b) shapeCasts_S128_S1x128

/-- One layer: neighbourhood sums with the source-side scale `so`, then the dense half with the destination-side scale
    `si`, the weights `Wl` and the bias row `Bl`. -/
def layer (h : F32 S50000x128) (so si : F32 S50000x1) (src dst : I32 S800000) (Wl : F32 S128x128) (Bl : F32 S1x128) :
    F32 S50000x128 :=
  dense (R := 50000) (K := 128) (N := 128) (agg h so src dst) si Wl Bl floor

/-- Per-graph means: rows of `h` summed by graph id, over `max 1 (size of the graph)`. -/
def graphMean (h : F32 S50000x128) (g : I32 S50000) : F32 S256x128 :=
  Host.divf
    (Host.scatterAdd scatter_S256x128_S50000x1_S50000x128_1_0_0_1
      (broadcastInDim S256x128 ![] bcast_S_S256x128 (constant (F := Ideal) S_ .f32 0x00000000#32))
      (broadcastInDim S50000x1 ![0] bcast_S50000_S50000x1_0 g) h)
    (broadcastInDim S256x128 ![0, 1] bcast_S256x1_S256x128_0_1
      (broadcastInDim S256x1 ![0] bcast_S256_S256x1_0
        (maximumf (broadcastInDim S256 ![] bcast_S_S256 (constant (F := Ideal) S_ .f32 0x3F800000#32))
          (Host.scatterAdd scatter_S256_S50000x1_S50000_n_0_0_1
            (broadcastInDim S256 ![] bcast_S_S256 (constant (F := Ideal) S_ .f32 0x00000000#32))
            (broadcastInDim S50000x1 ![0] bcast_S50000_S50000x1_0 g)
            (broadcastInDim S50000 ![] bcast_S_S50000 (constant (F := Ideal) S_ .f32 0x3F800000#32))))))

/-- THE RESULT of both programs: three layers over the features `x`, then the per-graph means. -/
def result (x : F32 S50000x128) (W : F32 S3x128x128) (b : F32 S3x128) (src dst : I32 S800000) (g : I32 S50000) :
    F32 S256x128 :=
  graphMean
    (layer
      (layer
        (layer x (normCol src) (normCol dst) src dst (wMat0 W) (bRow0 b))
        (normCol src) (normCol dst) src dst (wMat1 W) (bRow1 b))
      (normCol src) (normCol dst) src dst (wMat2 W) (bRow2 b))
    g

end Cert.Spec

end
-- ==== Proof.KHost.lean ====
/-
  What the kernel program's stretches of host operations leave in the buffers that matter, from ANY contents `V`.

  Each statement reads one buffer after one group of stretches as a function of a few buffers before it, in the
  vocabulary of the specification (`Cert.Spec`): the stretches before the first kernel call compute the two degree
  normalisers, the first neighbourhood sums and the first layer's weights and bias row; the stretch after each call
  computes the next neighbourhood sums from the call's result, and the next weights and bias row; the closing stretches
  compute the per-graph means. Buffers a stretch does not write keep their contents. The three calls of the floor-at-one function are first restated over their buffers directly (`clipDeg0_plain` …: the same operations, without the
  transport along each buffer's type). Every proof unfolds the fold of the stretch's operations one operation at a time
  and ends by comparing two spellings of the same term.
-/
import proofs.«153640_j84679575208613_2_alg».proof.Proof.Gen.KernelIdeal.Launch
import proofs.«153640_j84679575208613_2_alg».proof.Proof.Spec
import Idealize.ShloMosaic.Lib.StableHlo.Run

set_option maxRecDepth 16384

noncomputable section

namespace Cert.KernelIdeal.Host

open Cert.KernelIdeal Cert.KernelIdeal.Gen Cert.Spec
open Idealize.ShloMosaic Idealize.ShloMosaic.TcCoe Idealize.ShloMosaic.StableHlo

variable (V : Valuation τ sig (Elt Ideal))

/-! ## The floor-at-one calls, over their buffers directly -/

/-- The floor at one of the out-degrees. -/
theorem clipDeg0_plain : (hostOps0_1 : List (HloOp τ sig (Elt Ideal))) =
    [ StableHlo.unary main_cst_1 main_call0_v0 (id : (⟨S_, .f32⟩ : BufTy).Contents (Elt Ideal) → (⟨S_, .f32⟩ : BufTy).Contents (Elt Ideal)),
      StableHlo.unary main_call0_v0 main_call0_v1 (broadcastInDim S50000 ![] bcast_S_S50000 : (⟨S_, .f32⟩ : BufTy).Contents (Elt Ideal) → (⟨S50000, .f32⟩ : BufTy).Contents (Elt Ideal)),
      StableHlo.binary main_call0_v1 main_v3 main_v4 (maximumf (F := Ideal) : FVec Ideal S50000 .f32 → FVec Ideal S50000 .f32 → FVec Ideal S50000 .f32) ] := rfl

/-- The floor at one of the in-degrees. -/
theorem clipDeg1_plain : (hostOps0_3 : List (HloOp τ sig (Elt Ideal))) =
    [ StableHlo.unary main_cst_3 main_call1_v0 (id : (⟨S_, .f32⟩ : BufTy).Contents (Elt Ideal) → (⟨S_, .f32⟩ : BufTy).Contents (Elt Ideal)),
      StableHlo.unary main_call1_v0 main_call1_v1 (broadcastInDim S50000 ![] bcast_S_S50000 : (⟨S_, .f32⟩ : BufTy).Contents (Elt Ideal) → (⟨S50000, .f32⟩ : BufTy).Contents (Elt Ideal)),
      StableHlo.binary main_call1_v1 main_v7 main_v8 (maximumf (F := Ideal) : FVec Ideal S50000 .f32 → FVec Ideal S50000 .f32 → FVec Ideal S50000 .f32) ] := rfl

/-- The floor at one of the graphs' sizes. -/
theorem clipCount_plain : (hostOps3_1 : List (HloOp τ sig (Elt Ideal))) =
    [ StableHlo.unary main_cst_14 main_call2_v0 (id : (⟨S_, .f32⟩ : BufTy).Contents (Elt Ideal) → (⟨S_, .f32⟩ : BufTy).Contents (Elt Ideal)),
      StableHlo.unary main_call2_v0 main_call2_v1 (broadcastInDim S256 ![] bcast_S_S256 : (⟨S_, .f32⟩ : BufTy).Contents (Elt Ideal) → (⟨S256, .f32⟩ : BufTy).Contents (Elt Ideal)),
      StableHlo.binary main_call2_v1 main_v70 main_v71 (maximumf (F := Ideal) : FVec Ideal S256 .f32 → FVec Ideal S256 .f32 → FVec Ideal S256 .f32) ] := rfl

/-! ## Before the first call -/

set_option maxHeartbeats 4000000 in
/-- The source-side normaliser. -/
theorem head_v10 :
    (after hostOps0_4 (after hostOps0_3 (after hostOps0_2 (after hostOps0_1 (after hostOps0 V))))) (Proc.devRef .tc main_v10)
      = normCol (V (Proc.devRef .tc main_arg3)) := by
  rw [clipDeg0_plain, clipDeg1_plain]
  after_results_simp
  try simp only [id_eq]
  unfold normCol
  with_reducible rfl

set_option maxHeartbeats 4000000 in
/-- The destination-side normaliser. -/
theorem head_v12 :
    (after hostOps0_4 (after hostOps0_3 (after hostOps0_2 (after hostOps0_1 (after hostOps0 V))))) (Proc.devRef .tc main_v12)
      = normCol (V (Proc.devRef .tc main_arg4)) := by
  rw [clipDeg0_plain, clipDeg1_plain]
  after_results_simp
  try simp only [id_eq]
  unfold normCol
  with_reducible rfl

set_option maxHeartbeats 4000000 in
/-- The first neighbourhood sums, of the features. -/
theorem head_v24 :
    (after hostOps0_4 (after hostOps0_3 (after hostOps0_2 (after hostOps0_1 (after hostOps0 V))))) (Proc.devRef .tc main_v24)
      = agg (V (Proc.devRef .tc main_arg0)) (normCol (V (Proc.devRef .tc main_arg3))) (V (Proc.devRef .tc main_arg3)) (V (Proc.devRef .tc main_arg4)) := by
  rw [clipDeg0_plain, clipDeg1_plain]
  after_results_simp
  try simp only [id_eq]
  unfold agg gatherIdx normCol
  with_reducible rfl

set_option maxHeartbeats 4000000 in
/-- The first layer's weights. -/
theorem head_v26 :
    (after hostOps0_4 (after hostOps0_3 (after hostOps0_2 (after hostOps0_1 (after hostOps0 V))))) (Proc.devRef .tc main_v26)
      = wMat0 (V (Proc.devRef .tc main_arg1)) := by
  rw [clipDeg0_plain, clipDeg1_plain]
  after_results_simp
  try simp only [id_eq]
  unfold wMat0
  rfl

set_option maxHeartbeats 4000000 in
/-- The first layer's bias row. -/
theorem head_v29 :
    (after hostOps0_4 (after hostOps0_3 (after hostOps0_2 (after hostOps0_1 (after hostOps0 V))))) (Proc.devRef .tc main_v29)
      = bRow0 (V (Proc.devRef .tc main_arg2)) := by
  rw [clipDeg0_plain, clipDeg1_plain]
  after_results_simp
  try simp only [id_eq]
  unfold bRow0 bVec0
  rfl

set_option maxHeartbeats 4000000 in
/-- Argument 1 is not written. -/
theorem head_arg1 :
    (after hostOps0_4 (after hostOps0_3 (after hostOps0_2 (after hostOps0_1 (after hostOps0 V))))) (Proc.devRef .tc main_arg1)
      = V (Proc.devRef .tc main_arg1) := by
  rw [clipDeg0_plain, clipDeg1_plain]
  after_results_simp

set_option maxHeartbeats 4000000 in
/-- Argument 2 is not written. -/
theorem head_arg2 :
    (after hostOps0_4 (after hostOps0_3 (after hostOps0_2 (after hostOps0_1 (after hostOps0 V))))) (Proc.devRef .tc main_arg2)
      = V (Proc.devRef .tc main_arg2) := by
  rw [clipDeg0_plain, clipDeg1_plain]
  after_results_simp

set_option maxHeartbeats 4000000 in
/-- Argument 3 is not written. -/
theorem head_arg3 :
    (after hostOps0_4 (after hostOps0_3 (after hostOps0_2 (after hostOps0_1 (after hostOps0 V))))) (Proc.devRef .tc main_arg3)
      = V (Proc.devRef .tc main_arg3) := by
  rw [clipDeg0_plain, clipDeg1_plain]
  after_results_simp

set_option maxHeartbeats 4000000 in
/-- Argument 4 is not written. -/
theorem head_arg4 :
    (after hostOps0_4 (after hostOps0_3 (after hostOps0_2 (after hostOps0_1 (after hostOps0 V))))) (Proc.devRef .tc main_arg4)
      = V (Proc.devRef .tc main_arg4) := by
  rw [clipDeg0_plain, clipDeg1_plain]
  after_results_simp

set_option maxHeartbeats 4000000 in
/-- Argument 5 is not written. -/
theorem head_arg5 :
    (after hostOps0_4 (after hostOps0_3 (after hostOps0_2 (after hostOps0_1 (after hostOps0 V))))) (Proc.devRef .tc main_arg5)
      = V (Proc.devRef .tc main_arg5) := by
  rw [clipDeg0_plain, clipDeg1_plain]
  after_results_simp

/-! ## Between the first and the second call -/

set_option maxHeartbeats 4000000 in
/-- The second neighbourhood sums, of the first call's result. -/
theorem mid1_v42 :
    after hostOps1 V (Proc.devRef .tc main_v42)
      = agg (V (Proc.devRef .tc main_v30)) (V (Proc.devRef .tc main_v10)) (V (Proc.devRef .tc main_arg3)) (V (Proc.devRef .tc main_arg4)) := by
  after_results_simp
  try simp only [id_eq]
  unfold agg gatherIdx
  with_reducible rfl

set_option maxHeartbeats 4000000 in
/-- The second layer's weights. -/
theorem mid1_v44 :
    after hostOps1 V (Proc.devRef .tc main_v44)
      = wMat1 (V (Proc.devRef .tc main_arg1)) := by
  after_results_simp
  try simp only [id_eq]
  unfold wMat1
  rfl

set_option maxHeartbeats 4000000 in
/-- The second layer's bias row. -/
theorem mid1_v47 :
    after hostOps1 V (Proc.devRef .tc main_v47)
      = bRow1 (V (Proc.devRef .tc main_arg2)) := by
  after_results_simp
  try simp only [id_eq]
  unfold bRow1 bVec1
  rfl

set_option maxHeartbeats 4000000 in
/-- `main_v10` is not written. -/
theorem mid1_v10 :
    after hostOps1 V (Proc.devRef .tc main_v10)
      = V (Proc.devRef .tc main_v10) := by
  after_results_simp

set_option maxHeartbeats 4000000 in
/-- `main_v12` is not written. -/
theorem mid1_v12 :
    after hostOps1 V (Proc.devRef .tc main_v12)
      = V (Proc.devRef .tc main_v12) := by
  after_results_simp

set_option maxHeartbeats 4000000 in
/-- `main_arg1` is not written. -/
theorem mid1_arg1 :
    after hostOps1 V (Proc.devRef .tc main_arg1)
      = V (Proc.devRef .tc main_arg1) := by
  after_results_simp

set_option maxHeartbeats 4000000 in
/-- `main_arg2` is not written. -/
theorem mid1_arg2 :
    after hostOps1 V (Proc.devRef .tc main_arg2)
      = V (Proc.devRef .tc main_arg2) := by
  after_results_simp

set_option maxHeartbeats 4000000 in
/-- `main_arg3` is not written. -/
theorem mid1_arg3 :
    after hostOps1 V (Proc.devRef .tc main_arg3)
      = V (Proc.devRef .tc main_arg3) := by
  after_results_simp

set_option maxHeartbeats 4000000 in
/-- `main_arg4` is not written. -/
theorem mid1_arg4 :
    after hostOps1 V (Proc.devRef .tc main_arg4)
      = V (Proc.devRef .tc main_arg4) := by
  after_results_simp

set_option maxHeartbeats 4000000 in
/-- `main_arg5` is not written. -/
theorem mid1_arg5 :
    after hostOps1 V (Proc.devRef .tc main_arg5)
      = V (Proc.devRef .tc main_arg5) := by
  after_results_simp

/-! ## Between the second and the third call -/

set_option maxHeartbeats 4000000 in
/-- The third neighbourhood sums, of the second call's result. -/
theorem mid2_v60 :
    after hostOps2 V (Proc.devRef .tc main_v60)
      = agg (V (Proc.devRef .tc main_v48)) (V (Proc.devRef .tc main_v10)) (V (Proc.devRef .tc main_arg3)) (V (Proc.devRef .tc main_arg4)) := by
  after_results_simp
  try simp only [id_eq]
  unfold agg gatherIdx
  with_reducible rfl

set_option maxHeartbeats 4000000 in
/-- The third layer's weights. -/
theorem mid2_v62 :
    after hostOps2 V (Proc.devRef .tc main_v62)
      = wMat2 (V (Proc.devRef .tc main_arg1)) := by
  after_results_simp
  try simp only [id_eq]
  unfold wMat2
  rfl

set_option maxHeartbeats 4000000 in
/-- The third layer's bias row. -/
theorem mid2_v65 :
    after hostOps2 V (Proc.devRef .tc main_v65)
      = bRow2 (V (Proc.devRef .tc main_arg2)) := by
  after_results_simp
  try simp only [id_eq]
  unfold bRow2 bVec2
  rfl

set_option maxHeartbeats 4000000 in
/-- `main_v12` is not written. -/
theorem mid2_v12 :
    after hostOps2 V (Proc.devRef .tc main_v12)
      = V (Proc.devRef .tc main_v12) := by
  after_results_simp

set_option maxHeartbeats 4000000 in
/-- `main_arg5` is not written. -/
theorem mid2_arg5 :
    after hostOps2 V (Proc.devRef .tc main_arg5)
      = V (Proc.devRef .tc main_arg5) := by
  after_results_simp

/-! ## After the third call -/

set_option maxHeartbeats 4000000 in
/-- The per-graph means of the third call's result. -/
theorem tail_v77 :
    (after hostOps3_2 (after hostOps3_1 (after hostOps3 V))) (Proc.devRef .tc main_v77)
      = graphMean (V (Proc.devRef .tc main_v66)) (V (Proc.devRef .tc main_arg5)) := by
  rw [clipCount_plain]
  after_results_simp
  try simp only [id_eq]
  unfold graphMean
  with_reducible rfl

end Cert.KernelIdeal.Host

end
-- ==== Proof.KValue.lean ====
/-
  The idealized kernel program's result as the specification's function of the launch memory.

  The buffers' contents at the end (`Gen.W13`) are a fold through @main's thirteen segments. Reading it back: the
  stretches before the first kernel call leave the two degree normalisers, the features' neighbourhood sums and the
  first layer's weights and bias row (`entry0_…`); the call leaves the first layer in its result array (`Call0.final`)
  and every other buffer alone (`exit0_…`); the next stretch leaves the neighbourhood sums of that result and the
  second layer's weights and bias row (`entry1_…`); and so on through the third call; the closing stretches leave the
  per-graph means of the third layer (`value`).
-/
import proofs.«153640_j84679575208613_2_alg».proof.Proof.Gen.KernelIdeal.Frame
import proofs.«153640_j84679575208613_2_alg».proof.Proof.Call0
import proofs.«153640_j84679575208613_2_alg».proof.Proof.Call1
import proofs.«153640_j84679575208613_2_alg».proof.Proof.Call2
import proofs.«153640_j84679575208613_2_alg».proof.Proof.KHost
import proofs.«153640_j84679575208613_2_alg».proof.Proof.Spec

set_option maxRecDepth 16384

noncomputable section

namespace Cert.KernelIdeal.Fold

open Cert.KernelIdeal Cert.KernelIdeal.Gen Cert.KernelIdeal.Host Cert.Spec Cert.Linear
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## At the first call's entry -/

theorem entry0_v10 : W5 m ρ c (Proc.devRef .tc main_v10) = normCol (m ((c.tc : Thread nD τ).loc main_arg3)) := head_v10 (W0 m ρ c)
theorem entry0_v12 : W5 m ρ c (Proc.devRef .tc main_v12) = normCol (m ((c.tc : Thread nD τ).loc main_arg4)) := head_v12 (W0 m ρ c)
theorem entry0_v24 : W5 m ρ c (Proc.devRef .tc main_v24) = agg (m ((c.tc : Thread nD τ).loc main_arg0)) (normCol (m ((c.tc : Thread nD τ).loc main_arg3))) (m ((c.tc : Thread nD τ).loc main_arg3)) (m ((c.tc : Thread nD τ).loc main_arg4)) := head_v24 (W0 m ρ c)
theorem entry0_v26 : W5 m ρ c (Proc.devRef .tc main_v26) = wMat0 (m ((c.tc : Thread nD τ).loc main_arg1)) := head_v26 (W0 m ρ c)
theorem entry0_v29 : W5 m ρ c (Proc.devRef .tc main_v29) = bRow0 (m ((c.tc : Thread nD τ).loc main_arg2)) := head_v29 (W0 m ρ c)
theorem entry0_arg1 : W5 m ρ c (Proc.devRef .tc main_arg1) = (m ((c.tc : Thread nD τ).loc main_arg1)) := head_arg1 (W0 m ρ c)
theorem entry0_arg2 : W5 m ρ c (Proc.devRef .tc main_arg2) = (m ((c.tc : Thread nD τ).loc main_arg2)) := head_arg2 (W0 m ρ c)
theorem entry0_arg3 : W5 m ρ c (Proc.devRef .tc main_arg3) = (m ((c.tc : Thread nD τ).loc main_arg3)) := head_arg3 (W0 m ρ c)
theorem entry0_arg4 : W5 m ρ c (Proc.devRef .tc main_arg4) = (m ((c.tc : Thread nD τ).loc main_arg4)) := head_arg4 (W0 m ρ c)
theorem entry0_arg5 : W5 m ρ c (Proc.devRef .tc main_arg5) = (m ((c.tc : Thread nD τ).loc main_arg5)) := head_arg5 (W0 m ρ c)

/-! ## At the first call's exit: the first layer; the other buffers as at its entry -/

theorem exit0_v30 : W6 m ρ c (Proc.devRef .tc main_v30) = (layer (m ((c.tc : Thread nD τ).loc main_arg0)) (normCol (m ((c.tc : Thread nD τ).loc main_arg3))) (normCol (m ((c.tc : Thread nD τ).loc main_arg4))) (m ((c.tc : Thread nD τ).loc main_arg3)) (m ((c.tc : Thread nD τ).loc main_arg4)) (wMat0 (m ((c.tc : Thread nD τ).loc main_arg1))) (bRow0 (m ((c.tc : Thread nD τ).loc main_arg2)))) := by
  have h : W6 m ρ c (Proc.devRef .tc main_v30) = dense (R := 50000) (K := 128) (N := 128) (W5 m ρ c (Proc.devRef .tc main_v24)) (W5 m ρ c (Proc.devRef .tc main_v12)) (W5 m ρ c (Proc.devRef .tc main_v26)) (W5 m ρ c (Proc.devRef .tc main_v29)) Call0.floor :=
    (W6_arr m ρ c 4).trans (Call0.final (V5 m ρ) c)
  rw [entry0_v24, entry0_v12, entry0_v26, entry0_v29] at h
  exact h
theorem exit0_v10 : W6 m ρ c (Proc.devRef .tc main_v10) = normCol (m ((c.tc : Thread nD τ).loc main_arg3)) :=
  (W6_of_ne m ρ c main_v10 (by decide)).trans (entry0_v10 m ρ c)
/-- The destination-side normaliser is one of the call's INPUT arrays: the pipeline leaves an input array as it found it. -/
theorem exit0_v12 : W6 m ρ c (Proc.devRef .tc main_v12) = normCol (m ((c.tc : Thread nD τ).loc main_arg4)) :=
  ((W6_arr m ρ c 1).trans (((dat0 (V5 m ρ) c).arrAt_in 1 rfl cfg0.N).trans (A_eq0 (V5 m ρ) c 1))).trans (entry0_v12 m ρ c)
theorem exit0_arg1 : W6 m ρ c (Proc.devRef .tc main_arg1) = (m ((c.tc : Thread nD τ).loc main_arg1)) :=
  (W6_of_ne m ρ c main_arg1 (by decide)).trans (entry0_arg1 m ρ c)
theorem exit0_arg2 : W6 m ρ c (Proc.devRef .tc main_arg2) = (m ((c.tc : Thread nD τ).loc main_arg2)) :=
  (W6_of_ne m ρ c main_arg2 (by decide)).trans (entry0_arg2 m ρ c)
theorem exit0_arg3 : W6 m ρ c (Proc.devRef .tc main_arg3) = (m ((c.tc : Thread nD τ).loc main_arg3)) :=
  (W6_of_ne m ρ c main_arg3 (by decide)).trans (entry0_arg3 m ρ c)
theorem exit0_arg4 : W6 m ρ c (Proc.devRef .tc main_arg4) = (m ((c.tc : Thread nD τ).loc main_arg4)) :=
  (W6_of_ne m ρ c main_arg4 (by decide)).trans (entry0_arg4 m ρ c)
theorem exit0_arg5 : W6 m ρ c (Proc.devRef .tc main_arg5) = (m ((c.tc : Thread nD τ).loc main_arg5)) :=
  (W6_of_ne m ρ c main_arg5 (by decide)).trans (entry0_arg5 m ρ c)

/-! ## At the second call's entry -/

theorem entry1_v42 : W7 m ρ c (Proc.devRef .tc main_v42) = agg (layer (m ((c.tc : Thread nD τ).loc main_arg0)) (normCol (m ((c.tc : Thread nD τ).loc main_arg3))) (normCol (m ((c.tc : Thread nD τ).loc main_arg4))) (m ((c.tc : Thread nD τ).loc main_arg3)) (m ((c.tc : Thread nD τ).loc main_arg4)) (wMat0 (m ((c.tc : Thread nD τ).loc main_arg1))) (bRow0 (m ((c.tc : Thread nD τ).loc main_arg2)))) (normCol (m ((c.tc : Thread nD τ).loc main_arg3))) (m ((c.tc : Thread nD τ).loc main_arg3)) (m ((c.tc : Thread nD τ).loc main_arg4)) :=
  (mid1_v42 (W6 m ρ c)).trans (by rw [exit0_v30, exit0_v10, exit0_arg3, exit0_arg4])
theorem entry1_v44 : W7 m ρ c (Proc.devRef .tc main_v44) = wMat1 (m ((c.tc : Thread nD τ).loc main_arg1)) := (mid1_v44 (W6 m ρ c)).trans (by rw [exit0_arg1])
theorem entry1_v47 : W7 m ρ c (Proc.devRef .tc main_v47) = bRow1 (m ((c.tc : Thread nD τ).loc main_arg2)) := (mid1_v47 (W6 m ρ c)).trans (by rw [exit0_arg2])
theorem entry1_v10 : W7 m ρ c (Proc.devRef .tc main_v10) = normCol (m ((c.tc : Thread nD τ).loc main_arg3)) :=
  (mid1_v10 (W6 m ρ c)).trans (exit0_v10 m ρ c)
theorem entry1_v12 : W7 m ρ c (Proc.devRef .tc main_v12) = normCol (m ((c.tc : Thread nD τ).loc main_arg4)) :=
  (mid1_v12 (W6 m ρ c)).trans (exit0_v12 m ρ c)
theorem entry1_arg1 : W7 m ρ c (Proc.devRef .tc main_arg1) = (m ((c.tc : Thread nD τ).loc main_arg1)) :=
  (mid1_arg1 (W6 m ρ c)).trans (exit0_arg1 m ρ c)
theorem entry1_arg2 : W7 m ρ c (Proc.devRef .tc main_arg2) = (m ((c.tc : Thread nD τ).loc main_arg2)) :=
  (mid1_arg2 (W6 m ρ c)).trans (exit0_arg2 m ρ c)
theorem entry1_arg3 : W7 m ρ c (Proc.devRef .tc main_arg3) = (m ((c.tc : Thread nD τ).loc main_arg3)) :=
  (mid1_arg3 (W6 m ρ c)).trans (exit0_arg3 m ρ c)
theorem entry1_arg4 : W7 m ρ c (Proc.devRef .tc main_arg4) = (m ((c.tc : Thread nD τ).loc main_arg4)) :=
  (mid1_arg4 (W6 m ρ c)).trans (exit0_arg4 m ρ c)
theorem entry1_arg5 : W7 m ρ c (Proc.devRef .tc main_arg5) = (m ((c.tc : Thread nD τ).loc main_arg5)) :=
  (mid1_arg5 (W6 m ρ c)).trans (exit0_arg5 m ρ c)

/-! ## At the second call's exit -/

theorem exit1_v48 : W8 m ρ c (Proc.devRef .tc main_v48) = (layer (layer (m ((c.tc : Thread nD τ).loc main_arg0)) (normCol (m ((c.tc : Thread nD τ).loc main_arg3))) (normCol (m ((c.tc : Thread nD τ).loc main_arg4))) (m ((c.tc : Thread nD τ).loc main_arg3)) (m ((c.tc : Thread nD τ).loc main_arg4)) (wMat0 (m ((c.tc : Thread nD τ).loc main_arg1))) (bRow0 (m ((c.tc : Thread nD τ).loc main_arg2)))) (normCol (m ((c.tc : Thread nD τ).loc main_arg3))) (normCol (m ((c.tc : Thread nD τ).loc main_arg4))) (m ((c.tc : Thread nD τ).loc main_arg3)) (m ((c.tc : Thread nD τ).loc main_arg4)) (wMat1 (m ((c.tc : Thread nD τ).loc main_arg1))) (bRow1 (m ((c.tc : Thread nD τ).loc main_arg2)))) := by
  have h : W8 m ρ c (Proc.devRef .tc main_v48) = dense (R := 50000) (K := 128) (N := 128) (W7 m ρ c (Proc.devRef .tc main_v42)) (W7 m ρ c (Proc.devRef .tc main_v12)) (W7 m ρ c (Proc.devRef .tc main_v44)) (W7 m ρ c (Proc.devRef .tc main_v47)) Call1.floor :=
    (W8_arr m ρ c 4).trans (Call1.final (V7 m ρ) c)
  rw [entry1_v42, entry1_v12, entry1_v44, entry1_v47] at h
  exact h
theorem exit1_v10 : W8 m ρ c (Proc.devRef .tc main_v10) = normCol (m ((c.tc : Thread nD τ).loc main_arg3)) :=
  (W8_of_ne m ρ c main_v10 (by decide)).trans (entry1_v10 m ρ c)
/-- The destination-side normaliser is one of the call's INPUT arrays: the pipeline leaves an input array as it found it. -/
theorem exit1_v12 : W8 m ρ c (Proc.devRef .tc main_v12) = normCol (m ((c.tc : Thread nD τ).loc main_arg4)) :=
  ((W8_arr m ρ c 1).trans (((dat1 (V7 m ρ) c).arrAt_in 1 rfl cfg1.N).trans (A_eq1 (V7 m ρ) c 1))).trans (entry1_v12 m ρ c)
theorem exit1_arg1 : W8 m ρ c (Proc.devRef .tc main_arg1) = (m ((c.tc : Thread nD τ).loc main_arg1)) :=
  (W8_of_ne m ρ c main_arg1 (by decide)).trans (entry1_arg1 m ρ c)
theorem exit1_arg2 : W8 m ρ c (Proc.devRef .tc main_arg2) = (m ((c.tc : Thread nD τ).loc main_arg2)) :=
  (W8_of_ne m ρ c main_arg2 (by decide)).trans (entry1_arg2 m ρ c)
theorem exit1_arg3 : W8 m ρ c (Proc.devRef .tc main_arg3) = (m ((c.tc : Thread nD τ).loc main_arg3)) :=
  (W8_of_ne m ρ c main_arg3 (by decide)).trans (entry1_arg3 m ρ c)
theorem exit1_arg4 : W8 m ρ c (Proc.devRef .tc main_arg4) = (m ((c.tc : Thread nD τ).loc main_arg4)) :=
  (W8_of_ne m ρ c main_arg4 (by decide)).trans (entry1_arg4 m ρ c)
theorem exit1_arg5 : W8 m ρ c (Proc.devRef .tc main_arg5) = (m ((c.tc : Thread nD τ).loc main_arg5)) :=
  (W8_of_ne m ρ c main_arg5 (by decide)).trans (entry1_arg5 m ρ c)

/-! ## At the third call's entry -/

theorem entry2_v60 : W9 m ρ c (Proc.devRef .tc main_v60) = agg (layer (layer (m ((c.tc : Thread nD τ).loc main_arg0)) (normCol (m ((c.tc : Thread nD τ).loc main_arg3))) (normCol (m ((c.tc : Thread nD τ).loc main_arg4))) (m ((c.tc : Thread nD τ).loc main_arg3)) (m ((c.tc : Thread nD τ).loc main_arg4)) (wMat0 (m ((c.tc : Thread nD τ).loc main_arg1))) (bRow0 (m ((c.tc : Thread nD τ).loc main_arg2)))) (normCol (m ((c.tc : Thread nD τ).loc main_arg3))) (normCol (m ((c.tc : Thread nD τ).loc main_arg4))) (m ((c.tc : Thread nD τ).loc main_arg3)) (m ((c.tc : Thread nD τ).loc main_arg4)) (wMat1 (m ((c.tc : Thread nD τ).loc main_arg1))) (bRow1 (m ((c.tc : Thread nD τ).loc main_arg2)))) (normCol (m ((c.tc : Thread nD τ).loc main_arg3))) (m ((c.tc : Thread nD τ).loc main_arg3)) (m ((c.tc : Thread nD τ).loc main_arg4)) :=
  (mid2_v60 (W8 m ρ c)).trans (by rw [exit1_v48, exit1_v10, exit1_arg3, exit1_arg4])
theorem entry2_v62 : W9 m ρ c (Proc.devRef .tc main_v62) = wMat2 (m ((c.tc : Thread nD τ).loc main_arg1)) := (mid2_v62 (W8 m ρ c)).trans (by rw [exit1_arg1])
theorem entry2_v65 : W9 m ρ c (Proc.devRef .tc main_v65) = bRow2 (m ((c.tc : Thread nD τ).loc main_arg2)) := (mid2_v65 (W8 m ρ c)).trans (by rw [exit1_arg2])
theorem entry2_v12 : W9 m ρ c (Proc.devRef .tc main_v12) = normCol (m ((c.tc : Thread nD τ).loc main_arg4)) := (mid2_v12 (W8 m ρ c)).trans (exit1_v12 m ρ c)
theorem entry2_arg5 : W9 m ρ c (Proc.devRef .tc main_arg5) = (m ((c.tc : Thread nD τ).loc main_arg5)) := (mid2_arg5 (W8 m ρ c)).trans (exit1_arg5 m ρ c)

/-! ## At the third call's exit -/

theorem exit2_v66 : W10 m ρ c (Proc.devRef .tc main_v66) = (layer (layer (layer (m ((c.tc : Thread nD τ).loc main_arg0)) (normCol (m ((c.tc : Thread nD τ).loc main_arg3))) (normCol (m ((c.tc : Thread nD τ).loc main_arg4))) (m ((c.tc : Thread nD τ).loc main_arg3)) (m ((c.tc : Thread nD τ).loc main_arg4)) (wMat0 (m ((c.tc : Thread nD τ).loc main_arg1))) (bRow0 (m ((c.tc : Thread nD τ).loc main_arg2)))) (normCol (m ((c.tc : Thread nD τ).loc main_arg3))) (normCol (m ((c.tc : Thread nD τ).loc main_arg4))) (m ((c.tc : Thread nD τ).loc main_arg3)) (m ((c.tc : Thread nD τ).loc main_arg4)) (wMat1 (m ((c.tc : Thread nD τ).loc main_arg1))) (bRow1 (m ((c.tc : Thread nD τ).loc main_arg2)))) (normCol (m ((c.tc : Thread nD τ).loc main_arg3))) (normCol (m ((c.tc : Thread nD τ).loc main_arg4))) (m ((c.tc : Thread nD τ).loc main_arg3)) (m ((c.tc : Thread nD τ).loc main_arg4)) (wMat2 (m ((c.tc : Thread nD τ).loc main_arg1))) (bRow2 (m ((c.tc : Thread nD τ).loc main_arg2)))) := by
  have h : W10 m ρ c (Proc.devRef .tc main_v66) = dense (R := 50000) (K := 128) (N := 128) (W9 m ρ c (Proc.devRef .tc main_v60)) (W9 m ρ c (Proc.devRef .tc main_v12)) (W9 m ρ c (Proc.devRef .tc main_v62)) (W9 m ρ c (Proc.devRef .tc main_v65)) Call2.floor :=
    (W10_arr m ρ c 4).trans (Call2.final (V9 m ρ) c)
  rw [entry2_v60, entry2_v12, entry2_v62, entry2_v65] at h
  exact h
theorem exit2_arg5 : W10 m ρ c (Proc.devRef .tc main_arg5) = (m ((c.tc : Thread nD τ).loc main_arg5)) :=
  (W10_of_ne m ρ c main_arg5 (by decide)).trans (entry2_arg5 m ρ c)

/-! ## At the end -/

/-- THE RESULT BUFFER at the end of the run: the specification's function of the six argument arrays as launched. -/
theorem value : W13 m ρ c (Proc.devRef .tc main_v77) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (tail_v77 (W10 m ρ c)).trans (by rw [exit2_v66, exit2_arg5]; rfl)

end Cert.KernelIdeal.Fold

end
-- ==== Proof.LibAfter.lean ====
/-
  Two facts about a straight line of host operations, for running a long line in segments.

  The contents of the buffers after a line of operations is a fold over the line (each operation rewrites the buffers
  it writes and leaves the rest), so the contents after a concatenation of two lines are the contents after the second
  line, started from the contents after the first (`after_append`). And the side condition "no operation of the line
  allocates a buffer", which a run of the line asks for every member of the list, follows from the same condition
  stated as one conjunction over the list (`fresh_of_forall`), which splits along a concatenation (`forall_append`)
  and which, for a list written out operation by operation, holds by computation (`all_fresh`).
-/
import Idealize.ShloMosaic.Lib.StableHlo.Run

namespace Cert.LibAfter

open Idealize.ShloMosaic Idealize.ShloMosaic.StableHlo

variable {τ : Topo} {sig : RefSig} {Val : EltTy → Type}

/-- The buffer contents after a concatenation of two lines of operations are the contents after the second line,
    started from the contents after the first. -/
theorem after_append (a b : List (HloOp τ sig Val)) (V : Valuation τ sig Val) :
    after (a ++ b) V = after b (after a V) := by
  induction a generalizing V with
  | nil => rfl
  | cons op a ih => rw [List.cons_append, after_cons, after_cons, ih]

/-- A property of every operation of a concatenation is the property of every operation of each part. -/
theorem forall_append {α : Type} (p : α → Prop) (a b : List α) :
    (a ++ b).Forall p ↔ a.Forall p ∧ b.Forall p :=
  List.forall_append

/-- The property of each part gives the property of the concatenation. -/
theorem Forall.append {α : Type} {p : α → Prop} {a b : List α} (ha : a.Forall p) (hb : b.Forall p) :
    (a ++ b).Forall p :=
  (forall_append p a b).mpr ⟨ha, hb⟩

/-- "No operation allocates a buffer", stated as one conjunction over the list, gives it for every member. -/
theorem fresh_of_forall {ops : List (HloOp τ sig Val)} (h : ops.Forall fun op => op.fresh = ∅) :
    ∀ op ∈ ops, op.fresh = ∅ :=
  List.forall_iff_forall_mem.mp h

/-- The same for a family of lines, one per device: the form a run of the line asks for. -/
theorem fresh_of_forall_dev {ι : Type} {ops : ι → List (HloOp τ sig Val)}
    (h : ∀ d, (ops d).Forall fun op => op.fresh = ∅) : ∀ d, ∀ op ∈ ops d, op.fresh = ∅ :=
  fun d => fresh_of_forall (h d)

/-- `all_fresh ops` proves `ops.Forall fun op => op.fresh = ∅` for a list `ops` written out operation by operation
    (under a name, which is unfolded first): the conjunction over the list is split, and each operation built by a
    non-allocating builder has the empty set of fresh buffers by computation. -/
macro "all_fresh " ops:ident : tactic =>
  `(tactic| (first | simp only [$ops:ident, List.Forall] | simp only [List.Forall]
             repeat' constructor))

end Cert.LibAfter
-- ==== Proof.RRun.lean ====
/-
  The reference program's run, read segment by segment.

  The reference's @main is a straight line of 123 host operations (the bodies of the functions it calls standing in
  their calls' places, each operation written over its buffers directly). It is cut here where the mathematics cuts it: the degree normalisers, the three layers, the
  per-graph means. The buffers' contents after the whole line are the contents after the last segment started from
  those after the one before, and so on back to the launch memory (`ends`); every weakly fair execution terminates with
  every buffer at `ends` (`run`). What each segment leaves in the buffers that matter is read off in the module that
  imports this one.
-/
import proofs.«153640_j84679575208613_2_alg».proof.Proof.Gen.ReferenceIdeal
import proofs.«153640_j84679575208613_2_alg».proof.Proof.LibAfter
import Idealize.ShloMosaic.Lib.StableHlo.Run

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-- The degree normalisers: both accumulating scatters of ones, their floors at one, the reciprocal square roots as columns (22 operations). -/
abbrev opsNorm : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg3 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_call0_v0 (id : (⟨S_, .f32⟩ : BufTy).Contents (Elt F) → (⟨S_, .f32⟩ : BufTy).Contents (Elt F)),
    unary main_call0_v0 main_call0_v1 ((broadcastInDim S50000 ![] bcast_S_S50000) : (⟨S_, .f32⟩ : BufTy).Contents (Elt F) → (⟨S50000, .f32⟩ : BufTy).Contents (Elt F)),
    binary main_call0_v1 main_v3 main_v4 (maximumf : (⟨S50000, .f32⟩ : BufTy).Contents (Elt F) → (⟨S50000, .f32⟩ : BufTy).Contents (Elt F) → (⟨S50000, .f32⟩ : BufTy).Contents (Elt F)),
    nullary main_cst_2 (constant S_ .f32 0x00000000#32),
    unary main_cst_2 main_v5 (broadcastInDim S50000 ![] bcast_S_S50000 : (⟨S_, .f32⟩ : BufTy).Contents (Elt F) → (⟨S50000, .f32⟩ : BufTy).Contents (Elt F)),
    unary main_arg4 main_v6 (broadcastInDim S800000x1 ![0] bcast_S800000_S800000x1_0 : (⟨S800000, .i32⟩ : BufTy).Contents (Elt F) → (⟨S800000x1, .i32⟩ : BufTy).Contents (Elt F)),
    ternary main_v5 main_v6 main_v0 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_call1_v0 (id : (⟨S_, .f32⟩ : BufTy).Contents (Elt F) → (⟨S_, .f32⟩ : BufTy).Contents (Elt F)),
    unary main_call1_v0 main_call1_v1 ((broadcastInDim S50000 ![] bcast_S_S50000) : (⟨S_, .f32⟩ : BufTy).Contents (Elt F) → (⟨S50000, .f32⟩ : BufTy).Contents (Elt F)),
    binary main_call1_v1 main_v7 main_v8 (maximumf : (⟨S50000, .f32⟩ : BufTy).Contents (Elt F) → (⟨S50000, .f32⟩ : BufTy).Contents (Elt F) → (⟨S50000, .f32⟩ : BufTy).Contents (Elt F)),
    unary main_v4 main_v9 (Host.rsqrt : (⟨S50000, .f32⟩ : BufTy).Contents (Elt F) → (⟨S50000, .f32⟩ : BufTy).Contents (Elt F)),
    unary main_v9 main_v10 (broadcastInDim S50000x1 ![0] bcast_S50000_S50000x1_0 : (⟨S50000, .f32⟩ : BufTy).Contents (Elt F) → (⟨S50000x1, .f32⟩ : BufTy).Contents (Elt F)),
    unary main_v8 main_v11 (Host.rsqrt : (⟨S50000, .f32⟩ : BufTy).Contents (Elt F) → (⟨S50000, .f32⟩ : BufTy).Contents (Elt F)),
    unary main_v11 main_v12 (broadcastInDim S50000x1 ![0] bcast_S50000_S50000x1_0 : (⟨S50000, .f32⟩ : BufTy).Contents (Elt F) → (⟨S50000x1, .f32⟩ : BufTy).Contents (Elt F)) ]

/-- Layer 0: the neighbourhood sums of the scaled features, the dense half spelt by host operations, the floor at zero (28 operations). -/
abbrev opsLayer0 : List (HloOp τ sig (Elt F)) :=
  [ unary main_v10 main_v13 (broadcastInDim S50000x128 ![0, 1] bcast_S50000x1_S50000x128_0_1 : (⟨S50000x1, .f32⟩ : BufTy).Contents (Elt F) → (⟨S50000x128, .f32⟩ : BufTy).Contents (Elt F)),
    binary main_arg0 main_v13 main_v14 (mulf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v15 (broadcastInDim S800000 ![] bcast_S_S800000 : (⟨S_, .i32⟩ : BufTy).Contents (Elt F) → (⟨S800000, .i32⟩ : BufTy).Contents (Elt F)),
    binary main_arg3 main_v15 main_v16 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v17 (broadcastInDim S800000 ![] bcast_S_S800000 : (⟨S_, .i32⟩ : BufTy).Contents (Elt F) → (⟨S800000, .i32⟩ : BufTy).Contents (Elt F)),
    binary main_arg3 main_v17 main_v18 (addi : (⟨S800000, .i32⟩ : BufTy).Contents (Elt F) → (⟨S800000, .i32⟩ : BufTy).Contents (Elt F) → (⟨S800000, .i32⟩ : BufTy).Contents (Elt F)),
    ternary main_v16 main_v18 main_arg3 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v19 main_v20 (broadcastInDim S800000x1 ![0] bcast_S800000_S800000x1_0 : (⟨S800000, .i32⟩ : BufTy).Contents (Elt F) → (⟨S800000x1, .i32⟩ : BufTy).Contents (Elt F)),
    binary main_v14 main_v20 main_v21 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_5 (constant S_ .f32 0x00000000#32),
    unary main_cst_5 main_v22 (broadcastInDim S50000x128 ![] bcast_S_S50000x128 : (⟨S_, .f32⟩ : BufTy).Contents (Elt F) → (⟨S50000x128, .f32⟩ : BufTy).Contents (Elt F)),
    unary main_arg4 main_v23 (broadcastInDim S800000x1 ![0] bcast_S800000_S800000x1_0 : (⟨S800000, .i32⟩ : BufTy).Contents (Elt F) → (⟨S800000x1, .i32⟩ : BufTy).Contents (Elt F)),
    ternary main_v22 main_v23 main_v21 main_v24 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v25 (broadcastInDim S50000x128 ![0, 1] bcast_S50000x1_S50000x128_0_1 : (⟨S50000x1, .f32⟩ : BufTy).Contents (Elt F) → (⟨S50000x128, .f32⟩ : BufTy).Contents (Elt F)),
    binary main_v24 main_v25 main_v26 (mulf : (⟨S50000x128, .f32⟩ : BufTy).Contents (Elt F) → (⟨S50000x128, .f32⟩ : BufTy).Contents (Elt F) → (⟨S50000x128, .f32⟩ : BufTy).Contents (Elt F)),
    unary main_arg1 main_v27 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v27 main_v28 rfl shapeCasts_S1x128x128_S128x128,
    binary main_v26 main_v28 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v30 ((extractStridedSlice S1x128 ![0, 0] · slices_S3x128_S1x128_0_0) : (⟨S3x128, .f32⟩ : BufTy).Contents (Elt F) → (⟨S1x128, .f32⟩ : BufTy).Contents (Elt F)),
    reshape main_v30 main_v31 rfl shapeCasts_S1x128_S128,
    unary main_v31 main_v32 (broadcastInDim S1x128 ![1] bcast_S128_S1x128_1 : (⟨S128, .f32⟩ : BufTy).Contents (Elt F) → (⟨S1x128, .f32⟩ : BufTy).Contents (Elt F)),
    unary main_v32 main_v33 (broadcastInDim S50000x128 ![0, 1] bcast_S1x128_S50000x128_0_1 : (⟨S1x128, .f32⟩ : BufTy).Contents (Elt F) → (⟨S50000x128, .f32⟩ : BufTy).Contents (Elt F)),
    binary main_v29 main_v33 main_v34 (addf : (⟨S50000x128, .f32⟩ : BufTy).Contents (Elt F) → (⟨S50000x128, .f32⟩ : BufTy).Contents (Elt F) → (⟨S50000x128, .f32⟩ : BufTy).Contents (Elt F)),
    nullary main_call2_cst ((constant S_ .f32 0x00000000#32) : (⟨S_, .f32⟩ : BufTy).Contents (Elt F)),
    unary main_call2_cst main_call2_v0 ((broadcastInDim S50000x128 ![] bcast_S_S50000x128) : (⟨S_, .f32⟩ : BufTy).Contents (Elt F) → (⟨S50000x128, .f32⟩ : BufTy).Contents (Elt F)),
    binary main_v34 main_call2_v0 main_v35 (maximumf : (⟨S50000x128, .f32⟩ : BufTy).Contents (Elt F) → (⟨S50000x128, .f32⟩ : BufTy).Contents (Elt F) → (⟨S50000x128, .f32⟩ : BufTy).Contents (Elt F)) ]

/-- Layer 1, the same operations on layer 0's output. -/
abbrev opsLayer1 : List (HloOp τ sig (Elt F)) :=
  [ unary main_v10 main_v36 (broadcastInDim S50000x128 ![0, 1] bcast_S50000x1_S50000x128_0_1 : (⟨S50000x1, .f32⟩ : BufTy).Contents (Elt F) → (⟨S50000x128, .f32⟩ : BufTy).Contents (Elt F)),
    binary main_v35 main_v36 main_v37 (mulf : (⟨S50000x128, .f32⟩ : BufTy).Contents (Elt F) → (⟨S50000x128, .f32⟩ : BufTy).Contents (Elt F) → (⟨S50000x128, .f32⟩ : BufTy).Contents (Elt F)),
    nullary main_c_6 (constantI S_ 32 0#32),
    unary main_c_6 main_v38 (broadcastInDim S800000 ![] bcast_S_S800000 : (⟨S_, .i32⟩ : BufTy).Contents (Elt F) → (⟨S800000, .i32⟩ : BufTy).Contents (Elt F)),
    binary main_arg3 main_v38 main_v39 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v40 (broadcastInDim S800000 ![] bcast_S_S800000 : (⟨S_, .i32⟩ : BufTy).Contents (Elt F) → (⟨S800000, .i32⟩ : BufTy).Contents (Elt F)),
    binary main_arg3 main_v40 main_v41 (addi : (⟨S800000, .i32⟩ : BufTy).Contents (Elt F) → (⟨S800000, .i32⟩ : BufTy).Contents (Elt F) → (⟨S800000, .i32⟩ : BufTy).Contents (Elt F)),
    ternary main_v39 main_v41 main_arg3 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v42 main_v43 (broadcastInDim S800000x1 ![0] bcast_S800000_S800000x1_0 : (⟨S800000, .i32⟩ : BufTy).Contents (Elt F) → (⟨S800000x1, .i32⟩ : BufTy).Contents (Elt F)),
    binary main_v37 main_v43 main_v44 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_8 (constant S_ .f32 0x00000000#32),
    unary main_cst_8 main_v45 (broadcastInDim S50000x128 ![] bcast_S_S50000x128 : (⟨S_, .f32⟩ : BufTy).Contents (Elt F) → (⟨S50000x128, .f32⟩ : BufTy).Contents (Elt F)),
    unary main_arg4 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v48 (broadcastInDim S50000x128 ![0, 1] bcast_S50000x1_S50000x128_0_1 : (⟨S50000x1, .f32⟩ : BufTy).Contents (Elt F) → (⟨S50000x128, .f32⟩ : BufTy).Contents (Elt F)),
    binary main_v47 main_v48 main_v49 (mulf : (⟨S50000x128, .f32⟩ : BufTy).Contents (Elt F) → (⟨S50000x128, .f32⟩ : BufTy).Contents (Elt F) → (⟨S50000x128, .f32⟩ : BufTy).Contents (Elt F)),
    unary main_arg1 main_v50 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v50 main_v51 rfl shapeCasts_S1x128x128_S128x128,
    binary main_v49 main_v51 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v53 ((extractStridedSlice S1x128 ![1, 0] · slices_S3x128_S1x128_1_0) : (⟨S3x128, .f32⟩ : BufTy).Contents (Elt F) → (⟨S1x128, .f32⟩ : BufTy).Contents (Elt F)),
    reshape main_v53 main_v54 rfl shapeCasts_S1x128_S128,
    unary main_v54 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v52 main_v56 main_v57 (addf : (⟨S50000x128, .f32⟩ : BufTy).Contents (Elt F) → (⟨S50000x128, .f32⟩ : BufTy).Contents (Elt F) → (⟨S50000x128, .f32⟩ : BufTy).Contents (Elt F)),
    nullary main_call3_cst ((constant S_ .f32 0x00000000#32) : (⟨S_, .f32⟩ : BufTy).Contents (Elt F)),
    unary main_call3_cst main_call3_v0 ((broadcastInDim S50000x128 ![] bcast_S_S50000x128) : (⟨S_, .f32⟩ : BufTy).Contents (Elt F) → (⟨S50000x128, .f32⟩ : BufTy).Contents (Elt F)),
    binary main_v57 main_call3_v0 main_v58 (maximumf : (⟨S50000x128, .f32⟩ : BufTy).Contents (Elt F) → (⟨S50000x128, .f32⟩ : BufTy).Contents (Elt F) → (⟨S50000x128, .f32⟩ : BufTy).Contents (Elt F)) ]

/-- Layer 2, the same operations on layer 1's output. -/
abbrev opsLayer2 : List (HloOp τ sig (Elt F)) :=
  [ unary main_v10 main_v59 (broadcastInDim S50000x128 ![0, 1] bcast_S50000x1_S50000x128_0_1 : (⟨S50000x1, .f32⟩ : BufTy).Contents (Elt F) → (⟨S50000x128, .f32⟩ : BufTy).Contents (Elt F)),
    binary main_v58 main_v59 main_v60 (mulf : (⟨S50000x128, .f32⟩ : BufTy).Contents (Elt F) → (⟨S50000x128, .f32⟩ : BufTy).Contents (Elt F) → (⟨S50000x128, .f32⟩ : BufTy).Contents (Elt F)),
    nullary main_c_9 (constantI S_ 32 0#32),
    unary main_c_9 main_v61 (broadcastInDim S800000 ![] bcast_S_S800000 : (⟨S_, .i32⟩ : BufTy).Contents (Elt F) → (⟨S800000, .i32⟩ : BufTy).Contents (Elt F)),
    binary main_arg3 main_v61 main_v62 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v63 (broadcastInDim S800000 ![] bcast_S_S800000 : (⟨S_, .i32⟩ : BufTy).Contents (Elt F) → (⟨S800000, .i32⟩ : BufTy).Contents (Elt F)),
    binary main_arg3 main_v63 main_v64 (addi : (⟨S800000, .i32⟩ : BufTy).Contents (Elt F) → (⟨S800000, .i32⟩ : BufTy).Contents (Elt F) → (⟨S800000, .i32⟩ : BufTy).Contents (Elt F)),
    ternary main_v62 main_v64 main_arg3 main_v65 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v65 main_v66 (broadcastInDim S800000x1 ![0] bcast_S800000_S800000x1_0 : (⟨S800000, .i32⟩ : BufTy).Contents (Elt F) → (⟨S800000x1, .i32⟩ : BufTy).Contents (Elt F)),
    binary main_v60 main_v66 main_v67 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_11 (constant S_ .f32 0x00000000#32),
    unary main_cst_11 main_v68 (broadcastInDim S50000x128 ![] bcast_S_S50000x128 : (⟨S_, .f32⟩ : BufTy).Contents (Elt F) → (⟨S50000x128, .f32⟩ : BufTy).Contents (Elt F)),
    unary main_arg4 main_v69 (broadcastInDim S800000x1 ![0] bcast_S800000_S800000x1_0 : (⟨S800000, .i32⟩ : BufTy).Contents (Elt F) → (⟨S800000x1, .i32⟩ : BufTy).Contents (Elt F)),
    ternary main_v68 main_v69 main_v67 main_v70 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v71 (broadcastInDim S50000x128 ![0, 1] bcast_S50000x1_S50000x128_0_1 : (⟨S50000x1, .f32⟩ : BufTy).Contents (Elt F) → (⟨S50000x128, .f32⟩ : BufTy).Contents (Elt F)),
    binary main_v70 main_v71 main_v72 (mulf : (⟨S50000x128, .f32⟩ : BufTy).Contents (Elt F) → (⟨S50000x128, .f32⟩ : BufTy).Contents (Elt F) → (⟨S50000x128, .f32⟩ : BufTy).Contents (Elt F)),
    unary main_arg1 main_v73 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v73 main_v74 rfl shapeCasts_S1x128x128_S128x128,
    binary main_v72 main_v74 main_v75 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v76 ((extractStridedSlice S1x128 ![2, 0] · slices_S3x128_S1x128_2_0) : (⟨S3x128, .f32⟩ : BufTy).Contents (Elt F) → (⟨S1x128, .f32⟩ : BufTy).Contents (Elt F)),
    reshape main_v76 main_v77 rfl shapeCasts_S1x128_S128,
    unary main_v77 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v75 main_v79 main_v80 (addf : (⟨S50000x128, .f32⟩ : BufTy).Contents (Elt F) → (⟨S50000x128, .f32⟩ : BufTy).Contents (Elt F) → (⟨S50000x128, .f32⟩ : BufTy).Contents (Elt F)),
    nullary main_call4_cst ((constant S_ .f32 0x00000000#32) : (⟨S_, .f32⟩ : BufTy).Contents (Elt F)),
    unary main_call4_cst main_call4_v0 ((broadcastInDim S50000x128 ![] bcast_S_S50000x128) : (⟨S_, .f32⟩ : BufTy).Contents (Elt F) → (⟨S50000x128, .f32⟩ : BufTy).Contents (Elt F)),
    binary main_v80 main_call4_v0 main_v81 (maximumf : (⟨S50000x128, .f32⟩ : BufTy).Contents (Elt F) → (⟨S50000x128, .f32⟩ : BufTy).Contents (Elt F) → (⟨S50000x128, .f32⟩ : BufTy).Contents (Elt F)) ]

/-- The per-graph means of layer 2's output (17 operations). -/
abbrev opsPool : List (HloOp τ sig (Elt F)) :=
  [ nullary main_cst_12 (constant S_ .f32 0x3F800000#32),
    unary main_cst_12 main_v82 (broadcastInDim S50000 ![] bcast_S_S50000 : (⟨S_, .f32⟩ : BufTy).Contents (Elt F) → (⟨S50000, .f32⟩ : BufTy).Contents (Elt F)),
    nullary main_cst_13 (constant S_ .f32 0x00000000#32),
    unary main_cst_13 main_v83 (broadcastInDim S256 ![] bcast_S_S256 : (⟨S_, .f32⟩ : BufTy).Contents (Elt F) → (⟨S256, .f32⟩ : BufTy).Contents (Elt F)),
    unary main_arg5 main_v84 (broadcastInDim S50000x1 ![0] bcast_S50000_S50000x1_0 : (⟨S50000, .i32⟩ : BufTy).Contents (Elt F) → (⟨S50000x1, .i32⟩ : BufTy).Contents (Elt F)),
    ternary main_v83 main_v84 main_v82 main_v85 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    nullary main_cst_14 (constant S_ .f32 0x3F800000#32),
    unary main_cst_14 main_call5_v0 (id : (⟨S_, .f32⟩ : BufTy).Contents (Elt F) → (⟨S_, .f32⟩ : BufTy).Contents (Elt F)),
    unary main_call5_v0 main_call5_v1 ((broadcastInDim S256 ![] bcast_S_S256) : (⟨S_, .f32⟩ : BufTy).Contents (Elt F) → (⟨S256, .f32⟩ : BufTy).Contents (Elt F)),
    binary main_call5_v1 main_v85 main_v86 (maximumf : (⟨S256, .f32⟩ : BufTy).Contents (Elt F) → (⟨S256, .f32⟩ : BufTy).Contents (Elt F) → (⟨S256, .f32⟩ : BufTy).Contents (Elt F)),
    nullary main_cst_15 (constant S_ .f32 0x00000000#32),
    unary main_cst_15 main_v87 (broadcastInDim S256x128 ![] bcast_S_S256x128 : (⟨S_, .f32⟩ : BufTy).Contents (Elt F) → (⟨S256x128, .f32⟩ : BufTy).Contents (Elt F)),
    unary main_arg5 main_v88 (broadcastInDim S50000x1 ![0] bcast_S50000_S50000x1_0 : (⟨S50000, .i32⟩ : BufTy).Contents (Elt F) → (⟨S50000x1, .i32⟩ : BufTy).Contents (Elt F)),
    ternary main_v87 main_v88 main_v81 main_v89 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    unary main_v86 main_v90 (broadcastInDim S256x1 ![0] bcast_S256_S256x1_0 : (⟨S256, .f32⟩ : BufTy).Contents (Elt F) → (⟨S256x1, .f32⟩ : BufTy).Contents (Elt F)),
    unary main_v90 main_v91 (broadcastInDim S256x128 ![0, 1] bcast_S256x1_S256x128_0_1 : (⟨S256x1, .f32⟩ : BufTy).Contents (Elt F) → (⟨S256x128, .f32⟩ : BufTy).Contents (Elt F)),
    binary main_v89 main_v91 main_v92 (Host.divf : (⟨S256x128, .f32⟩ : BufTy).Contents (Elt F) → (⟨S256x128, .f32⟩ : BufTy).Contents (Elt F) → (⟨S256x128, .f32⟩ : BufTy).Contents (Elt F)) ]

/-- @main's operations, in order. -/
abbrev ops : List (HloOp τ sig (Elt F)) := opsNorm ++ (opsLayer0 ++ (opsLayer1 ++ (opsLayer2 ++ opsPool)))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only, and none allocates a buffer: segment by segment. -/

theorem opsNorm_sub : (opsNorm : List (HloOp τ sig (Elt F))).Forall fun op => op.bufs ⊆ tcRefs τ sig := by simp only [List.Forall, nullary_bufs_sub, unary_bufs_sub, binary_bufs_sub, ternary_bufs_sub, reshape_bufs_sub, and_self]
theorem opsLayer0_sub : (opsLayer0 : List (HloOp τ sig (Elt F))).Forall fun op => op.bufs ⊆ tcRefs τ sig := by simp only [List.Forall, nullary_bufs_sub, unary_bufs_sub, binary_bufs_sub, ternary_bufs_sub, reshape_bufs_sub, and_self]
theorem opsLayer1_sub : (opsLayer1 : List (HloOp τ sig (Elt F))).Forall fun op => op.bufs ⊆ tcRefs τ sig := by simp only [List.Forall, nullary_bufs_sub, unary_bufs_sub, binary_bufs_sub, ternary_bufs_sub, reshape_bufs_sub, and_self]
theorem opsLayer2_sub : (opsLayer2 : List (HloOp τ sig (Elt F))).Forall fun op => op.bufs ⊆ tcRefs τ sig := by simp only [List.Forall, nullary_bufs_sub, unary_bufs_sub, binary_bufs_sub, ternary_bufs_sub, reshape_bufs_sub, and_self]
theorem opsPool_sub : (opsPool : List (HloOp τ sig (Elt F))).Forall fun op => op.bufs ⊆ tcRefs τ sig := by simp only [List.Forall, nullary_bufs_sub, unary_bufs_sub, binary_bufs_sub, ternary_bufs_sub, reshape_bufs_sub, and_self]

theorem ops_sub : (ops : List (HloOp τ sig (Elt F))).Forall fun op => op.bufs ⊆ tcRefs τ sig :=
  Cert.LibAfter.Forall.append opsNorm_sub (Cert.LibAfter.Forall.append opsLayer0_sub
    (Cert.LibAfter.Forall.append opsLayer1_sub (Cert.LibAfter.Forall.append opsLayer2_sub opsPool_sub)))

open Cert.LibAfter in
theorem opsNorm_fresh : (opsNorm : List (HloOp τ sig (Elt F))).Forall fun op => op.fresh = ∅ := by all_fresh opsNorm
open Cert.LibAfter in
theorem opsLayer0_fresh : (opsLayer0 : List (HloOp τ sig (Elt F))).Forall fun op => op.fresh = ∅ := by all_fresh opsLayer0
open Cert.LibAfter in
theorem opsLayer1_fresh : (opsLayer1 : List (HloOp τ sig (Elt F))).Forall fun op => op.fresh = ∅ := by all_fresh opsLayer1
open Cert.LibAfter in
theorem opsLayer2_fresh : (opsLayer2 : List (HloOp τ sig (Elt F))).Forall fun op => op.fresh = ∅ := by all_fresh opsLayer2
open Cert.LibAfter in
theorem opsPool_fresh : (opsPool : List (HloOp τ sig (Elt F))).Forall fun op => op.fresh = ∅ := by all_fresh opsPool

theorem ops_fresh : (ops : List (HloOp τ sig (Elt F))).Forall fun op => op.fresh = ∅ :=
  Cert.LibAfter.Forall.append opsNorm_fresh (Cert.LibAfter.Forall.append opsLayer0_fresh
    (Cert.LibAfter.Forall.append opsLayer1_fresh (Cert.LibAfter.Forall.append opsLayer2_fresh opsPool_fresh)))

/-- The buffers' contents after the whole line, from the launch memory `m` of core `c`: segment after segment. -/
def ends (m : (ℓ : Loc nD τ sig) → Buf (Elt F) ℓ) (c : Dev nD) : Valuation τ sig (Elt F) :=
  after opsPool (after opsLayer2 (after opsLayer1 (after opsLayer0 (after opsNorm (launchContents m c)))))

/-- The contents after the whole line are the segments' contents, one after the other. -/
theorem after_ops (V : Valuation τ sig (Elt F)) :
    after (ops (F := F)) V = after opsPool (after opsLayer2 (after opsLayer1 (after opsLayer0 (after opsNorm V)))) := by
  unfold ops
  rw [Cert.LibAfter.after_append, Cert.LibAfter.after_append, Cert.LibAfter.after_append, Cert.LibAfter.after_append]

/-- On every device, from any memory with zero counters: every weakly fair execution of @main terminates, nothing
    faulting, with every TensorCore buffer at `ends`. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = ends m c (Proc.devRef .tc b) :=
  (θ_run defs _ _).mono (fun _ h c b => (h c b).trans (congrFun (after_ops (launchContents m c)) _))
    (run_seq scopedRefs_eq scopedSems_eq defs main (fun _ => ops) main_eq (fun _ => ops_sub) m ρ
      (Cert.LibAfter.fresh_of_forall_dev fun _ => ops_fresh))

end Cert.ReferenceIdeal.Whole

end
-- ==== Proof.RHost.lean ====
/-
  What each segment of the reference program leaves in the buffers that matter, from ANY contents `V`.

  In the vocabulary of the specification (`Cert.Spec`): the first segment computes the two degree normalisers; each
  layer's segment computes the layer of the previous result — its neighbourhood sums, then the dense half spelt by host
  operations (the scale column spread and multiplied in, `dot_general`, the bias vector spread and added, the floor at
  zero), which is `Cert.Linear.dense` by `Cert.Linear.dense_of_host_ops` —; the last segment computes the per-graph
  means. Buffers a segment does not write keep their contents. The reference's dimension records are the kernel
  program's, field by field (`scatterDeg_eq` …), so both programs' terms are spelt over the same records.
-/
import proofs.«153640_j84679575208613_2_alg».proof.Proof.RRun
import proofs.«153640_j84679575208613_2_alg».proof.Proof.Spec

set_option maxRecDepth 16384

noncomputable section

namespace Cert.ReferenceIdeal.Host

open Cert.ReferenceIdeal Cert.ReferenceIdeal.Facts₀ Cert.ReferenceIdeal.Gen Cert.ReferenceIdeal.Whole Cert.Spec Cert.Linear
open Idealize.ShloMosaic Idealize.ShloMosaic.TcCoe Idealize.ShloMosaic.StableHlo

variable (V : Valuation τ sig (Elt Ideal))

/-! ## The two programs' dimension records are the same records -/

theorem scatterDeg_eq : scatter_S50000_S800000x1_S800000_n_0_0_1 = Cert.KernelIdeal.scatter_S50000_S800000x1_S800000_n_0_0_1 := rfl
theorem scatterRows_eq : scatter_S50000x128_S800000x1_S800000x128_1_0_0_1 = Cert.KernelIdeal.scatter_S50000x128_S800000x1_S800000x128_1_0_0_1 := rfl
theorem gatherRows_eq : gather_S50000x128_S800000x1_S800000x128_1_0_n_n_0_1_1128 = Cert.KernelIdeal.gather_S50000x128_S800000x1_S800000x128_1_0_n_n_0_1_1128 := rfl
theorem scatterCount_eq : scatter_S256_S50000x1_S50000_n_0_0_1 = Cert.KernelIdeal.scatter_S256_S50000x1_S50000_n_0_0_1 := rfl
theorem scatterGraphs_eq : scatter_S256x128_S50000x1_S50000x128_1_0_0_1 = Cert.KernelIdeal.scatter_S256x128_S50000x1_S50000x128_1_0_0_1 := rfl

/-- The host product's dimension numbers contract the left operand's columns with the weights' rows. -/
theorem contracts : Contracts (R := 50000) (K := 128) (N := 128) dot_S50000x128_S128x128_S50000x128_1_0_0_1_n_n :=
  contracts_of_lists _ rfl rfl rfl rfl rfl rfl

/-! ## The degree normalisers -/

set_option maxHeartbeats 4000000 in
/-- The source-side normaliser. -/
theorem norm_v10 :
    after opsNorm V (Proc.devRef .tc main_v10)
      = normCol (V (Proc.devRef .tc main_arg3)) := by
  after_results_simp
  try simp only [id_eq]
  unfold normCol
  simp only [scatterDeg_eq]

set_option maxHeartbeats 4000000 in
/-- The destination-side normaliser. -/
theorem norm_v12 :
    after opsNorm V (Proc.devRef .tc main_v12)
      = normCol (V (Proc.devRef .tc main_arg4)) := by
  after_results_simp
  try simp only [id_eq]
  unfold normCol
  simp only [scatterDeg_eq]

set_option maxHeartbeats 4000000 in
/-- `main_arg0` is not written. -/
theorem norm_arg0 :
    after opsNorm V (Proc.devRef .tc main_arg0)
      = V (Proc.devRef .tc main_arg0) := by
  after_results_simp

set_option maxHeartbeats 4000000 in
/-- `main_arg1` is not written. -/
theorem norm_arg1 :
    after opsNorm V (Proc.devRef .tc main_arg1)
      = V (Proc.devRef .tc main_arg1) := by
  after_results_simp

set_option maxHeartbeats 4000000 in
/-- `main_arg2` is not written. -/
theorem norm_arg2 :
    after opsNorm V (Proc.devRef .tc main_arg2)
      = V (Proc.devRef .tc main_arg2) := by
  after_results_simp

set_option maxHeartbeats 4000000 in
/-- `main_arg3` is not written. -/
theorem norm_arg3 :
    after opsNorm V (Proc.devRef .tc main_arg3)
      = V (Proc.devRef .tc main_arg3) := by
  after_results_simp

set_option maxHeartbeats 4000000 in
/-- `main_arg4` is not written. -/
theorem norm_arg4 :
    after opsNorm V (Proc.devRef .tc main_arg4)
      = V (Proc.devRef .tc main_arg4) := by
  after_results_simp

set_option maxHeartbeats 4000000 in
/-- `main_arg5` is not written. -/
theorem norm_arg5 :
    after opsNorm V (Proc.devRef .tc main_arg5)
      = V (Proc.devRef .tc main_arg5) := by
  after_results_simp

/-! ## The layers -/

set_option maxHeartbeats 4000000 in
/-- Layer 0: the layer of the features. -/
theorem layer0_v35 :
    after opsLayer0 V (Proc.devRef .tc main_v35)
      = layer (V (Proc.devRef .tc main_arg0)) (V (Proc.devRef .tc main_v10)) (V (Proc.devRef .tc main_v12)) (V (Proc.devRef .tc main_arg3)) (V (Proc.devRef .tc main_arg4)) (wMat0 (V (Proc.devRef .tc main_arg1))) (bRow0 (V (Proc.devRef .tc main_arg2))) := by
  after_results_simp
  try simp only [id_eq]
  refine (dense_of_host_ops (R := 50000) (K := 128) (N := 128) dot_S50000x128_S128x128_S50000x128_1_0_0_1_n_n contracts none .single
    _ _ _ _ 0x00000000#32 _ _ _ _ Cert.KernelIdeal.Facts₀.shapeCasts_S128_S1x128).trans ?_
  unfold layer agg gatherIdx wMat0 bRow0 bVec0
  simp only [scatterRows_eq, gatherRows_eq]
  rfl

set_option maxHeartbeats 4000000 in
/-- `main_v10` is not written. -/
theorem layer0_v10 :
    after opsLayer0 V (Proc.devRef .tc main_v10)
      = V (Proc.devRef .tc main_v10) := by
  after_results_simp

set_option maxHeartbeats 4000000 in
/-- `main_v12` is not written. -/
theorem layer0_v12 :
    after opsLayer0 V (Proc.devRef .tc main_v12)
      = V (Proc.devRef .tc main_v12) := by
  after_results_simp

set_option maxHeartbeats 4000000 in
/-- `main_arg1` is not written. -/
theorem layer0_arg1 :
    after opsLayer0 V (Proc.devRef .tc main_arg1)
      = V (Proc.devRef .tc main_arg1) := by
  after_results_simp

set_option maxHeartbeats 4000000 in
/-- `main_arg2` is not written. -/
theorem layer0_arg2 :
    after opsLayer0 V (Proc.devRef .tc main_arg2)
      = V (Proc.devRef .tc main_arg2) := by
  after_results_simp

set_option maxHeartbeats 4000000 in
/-- `main_arg3` is not written. -/
theorem layer0_arg3 :
    after opsLayer0 V (Proc.devRef .tc main_arg3)
      = V (Proc.devRef .tc main_arg3) := by
  after_results_simp

set_option maxHeartbeats 4000000 in
/-- `main_arg4` is not written. -/
theorem layer0_arg4 :
    after opsLayer0 V (Proc.devRef .tc main_arg4)
      = V (Proc.devRef .tc main_arg4) := by
  after_results_simp

set_option maxHeartbeats 4000000 in
/-- `main_arg5` is not written. -/
theorem layer0_arg5 :
    after opsLayer0 V (Proc.devRef .tc main_arg5)
      = V (Proc.devRef .tc main_arg5) := by
  after_results_simp

set_option maxHeartbeats 4000000 in
/-- Layer 1: the layer of the previous layer's result. -/
theorem layer1_v58 :
    after opsLayer1 V (Proc.devRef .tc main_v58)
      = layer (V (Proc.devRef .tc main_v35)) (V (Proc.devRef .tc main_v10)) (V (Proc.devRef .tc main_v12)) (V (Proc.devRef .tc main_arg3)) (V (Proc.devRef .tc main_arg4)) (wMat1 (V (Proc.devRef .tc main_arg1))) (bRow1 (V (Proc.devRef .tc main_arg2))) := by
  after_results_simp
  try simp only [id_eq]
  refine (dense_of_host_ops (R := 50000) (K := 128) (N := 128) dot_S50000x128_S128x128_S50000x128_1_0_0_1_n_n contracts none .single
    _ _ _ _ 0x00000000#32 _ _ _ _ Cert.KernelIdeal.Facts₀.shapeCasts_S128_S1x128).trans ?_
  unfold layer agg gatherIdx wMat1 bRow1 bVec1
  simp only [scatterRows_eq, gatherRows_eq]
  rfl

set_option maxHeartbeats 4000000 in
/-- `main_v10` is not written. -/
theorem layer1_v10 :
    after opsLayer1 V (Proc.devRef .tc main_v10)
      = V (Proc.devRef .tc main_v10) := by
  after_results_simp

set_option maxHeartbeats 4000000 in
/-- `main_v12` is not written. -/
theorem layer1_v12 :
    after opsLayer1 V (Proc.devRef .tc main_v12)
      = V (Proc.devRef .tc main_v12) := by
  after_results_simp

set_option maxHeartbeats 4000000 in
/-- `main_arg1` is not written. -/
theorem layer1_arg1 :
    after opsLayer1 V (Proc.devRef .tc main_arg1)
      = V (Proc.devRef .tc main_arg1) := by
  after_results_simp

set_option maxHeartbeats 4000000 in
/-- `main_arg2` is not written. -/
theorem layer1_arg2 :
    after opsLayer1 V (Proc.devRef .tc main_arg2)
      = V (Proc.devRef .tc main_arg2) := by
  after_results_simp

set_option maxHeartbeats 4000000 in
/-- `main_arg3` is not written. -/
theorem layer1_arg3 :
    after opsLayer1 V (Proc.devRef .tc main_arg3)
      = V (Proc.devRef .tc main_arg3) := by
  after_results_simp

set_option maxHeartbeats 4000000 in
/-- `main_arg4` is not written. -/
theorem layer1_arg4 :
    after opsLayer1 V (Proc.devRef .tc main_arg4)
      = V (Proc.devRef .tc main_arg4) := by
  after_results_simp

set_option maxHeartbeats 4000000 in
/-- `main_arg5` is not written. -/
theorem layer1_arg5 :
    after opsLayer1 V (Proc.devRef .tc main_arg5)
      = V (Proc.devRef .tc main_arg5) := by
  after_results_simp

set_option maxHeartbeats 4000000 in
/-- Layer 2: the layer of the previous layer's result. -/
theorem layer2_v81 :
    after opsLayer2 V (Proc.devRef .tc main_v81)
      = layer (V (Proc.devRef .tc main_v58)) (V (Proc.devRef .tc main_v10)) (V (Proc.devRef .tc main_v12)) (V (Proc.devRef .tc main_arg3)) (V (Proc.devRef .tc main_arg4)) (wMat2 (V (Proc.devRef .tc main_arg1))) (bRow2 (V (Proc.devRef .tc main_arg2))) := by
  after_results_simp
  try simp only [id_eq]
  refine (dense_of_host_ops (R := 50000) (K := 128) (N := 128) dot_S50000x128_S128x128_S50000x128_1_0_0_1_n_n contracts none .single
    _ _ _ _ 0x00000000#32 _ _ _ _ Cert.KernelIdeal.Facts₀.shapeCasts_S128_S1x128).trans ?_
  unfold layer agg gatherIdx wMat2 bRow2 bVec2
  simp only [scatterRows_eq, gatherRows_eq]
  rfl

set_option maxHeartbeats 4000000 in
/-- `main_arg5` is not written. -/
theorem layer2_arg5 :
    after opsLayer2 V (Proc.devRef .tc main_arg5)
      = V (Proc.devRef .tc main_arg5) := by
  after_results_simp

/-! ## The per-graph means -/

set_option maxHeartbeats 4000000 in
/-- The per-graph means of the last layer's result. -/
theorem mean_v92 :
    after opsPool V (Proc.devRef .tc main_v92)
      = graphMean (V (Proc.devRef .tc main_v81)) (V (Proc.devRef .tc main_arg5)) := by
  after_results_simp
  try simp only [id_eq]
  unfold graphMean
  simp only [scatterCount_eq, scatterGraphs_eq]

end Cert.ReferenceIdeal.Host

end
-- ==== Proof.RValue.lean ====
/-
  The reference program's result as the specification's function of the launch memory, and its arguments at the end.

  The buffers' contents at the end (`Whole.ends`) are the five segments' contents one after the other. Reading them
  back: the first segment leaves the two degree normalisers (`norm_…`); each layer's segment leaves the layer of what
  the segment before it left (`first_…`, `second_…`, `third_…`); the last leaves the per-graph means of the third layer
  (`value`). No operation writes an argument array (`kept_…`).
-/
import proofs.«153640_j84679575208613_2_alg».proof.Proof.RRun
import proofs.«153640_j84679575208613_2_alg».proof.Proof.RHost
import proofs.«153640_j84679575208613_2_alg».proof.Proof.Spec

set_option maxRecDepth 16384

noncomputable section

namespace Cert.ReferenceIdeal.Fold

open Cert.ReferenceIdeal Cert.ReferenceIdeal.Gen Cert.ReferenceIdeal.Whole Cert.ReferenceIdeal.Host Cert.Spec
open Idealize.ShloMosaic Idealize.ShloMosaic.TcCoe Idealize.ShloMosaic.StableHlo Idealize.SL.Sem

variable (m : (ℓ : Loc nD τ sig) → Buf (Elt Ideal) ℓ) (c : Dev nD)

/-! ## After the normalisers' segment -/

theorem norm_v10 : (after opsNorm (launchContents m c)) (Proc.devRef .tc main_v10) = normCol (m ((c.tc : Thread nD τ).loc main_arg3)) := Host.norm_v10 (launchContents m c)
theorem norm_v12 : (after opsNorm (launchContents m c)) (Proc.devRef .tc main_v12) = normCol (m ((c.tc : Thread nD τ).loc main_arg4)) := Host.norm_v12 (launchContents m c)
theorem norm_arg0 : (after opsNorm (launchContents m c)) (Proc.devRef .tc main_arg0) = (m ((c.tc : Thread nD τ).loc main_arg0)) := Host.norm_arg0 (launchContents m c)
theorem norm_arg1 : (after opsNorm (launchContents m c)) (Proc.devRef .tc main_arg1) = (m ((c.tc : Thread nD τ).loc main_arg1)) := Host.norm_arg1 (launchContents m c)
theorem norm_arg2 : (after opsNorm (launchContents m c)) (Proc.devRef .tc main_arg2) = (m ((c.tc : Thread nD τ).loc main_arg2)) := Host.norm_arg2 (launchContents m c)
theorem norm_arg3 : (after opsNorm (launchContents m c)) (Proc.devRef .tc main_arg3) = (m ((c.tc : Thread nD τ).loc main_arg3)) := Host.norm_arg3 (launchContents m c)
theorem norm_arg4 : (after opsNorm (launchContents m c)) (Proc.devRef .tc main_arg4) = (m ((c.tc : Thread nD τ).loc main_arg4)) := Host.norm_arg4 (launchContents m c)
theorem norm_arg5 : (after opsNorm (launchContents m c)) (Proc.devRef .tc main_arg5) = (m ((c.tc : Thread nD τ).loc main_arg5)) := Host.norm_arg5 (launchContents m c)

/-! ## After the first layer's segment -/

theorem first_v35 : (after opsLayer0 (after opsNorm (launchContents m c))) (Proc.devRef .tc main_v35) = (layer (m ((c.tc : Thread nD τ).loc main_arg0)) (normCol (m ((c.tc : Thread nD τ).loc main_arg3))) (normCol (m ((c.tc : Thread nD τ).loc main_arg4))) (m ((c.tc : Thread nD τ).loc main_arg3)) (m ((c.tc : Thread nD τ).loc main_arg4)) (wMat0 (m ((c.tc : Thread nD τ).loc main_arg1))) (bRow0 (m ((c.tc : Thread nD τ).loc main_arg2)))) :=
  (layer0_v35 (after opsNorm (launchContents m c))).trans (by rw [norm_arg0, norm_v10, norm_v12, norm_arg3, norm_arg4, norm_arg1, norm_arg2])
theorem first_v10 : (after opsLayer0 (after opsNorm (launchContents m c))) (Proc.devRef .tc main_v10) = normCol (m ((c.tc : Thread nD τ).loc main_arg3)) := (layer0_v10 (after opsNorm (launchContents m c))).trans (norm_v10 m c)
theorem first_v12 : (after opsLayer0 (after opsNorm (launchContents m c))) (Proc.devRef .tc main_v12) = normCol (m ((c.tc : Thread nD τ).loc main_arg4)) := (layer0_v12 (after opsNorm (launchContents m c))).trans (norm_v12 m c)
theorem first_arg1 : (after opsLayer0 (after opsNorm (launchContents m c))) (Proc.devRef .tc main_arg1) = (m ((c.tc : Thread nD τ).loc main_arg1)) := (layer0_arg1 (after opsNorm (launchContents m c))).trans (norm_arg1 m c)
theorem first_arg2 : (after opsLayer0 (after opsNorm (launchContents m c))) (Proc.devRef .tc main_arg2) = (m ((c.tc : Thread nD τ).loc main_arg2)) := (layer0_arg2 (after opsNorm (launchContents m c))).trans (norm_arg2 m c)
theorem first_arg3 : (after opsLayer0 (after opsNorm (launchContents m c))) (Proc.devRef .tc main_arg3) = (m ((c.tc : Thread nD τ).loc main_arg3)) := (layer0_arg3 (after opsNorm (launchContents m c))).trans (norm_arg3 m c)
theorem first_arg4 : (after opsLayer0 (after opsNorm (launchContents m c))) (Proc.devRef .tc main_arg4) = (m ((c.tc : Thread nD τ).loc main_arg4)) := (layer0_arg4 (after opsNorm (launchContents m c))).trans (norm_arg4 m c)
theorem first_arg5 : (after opsLayer0 (after opsNorm (launchContents m c))) (Proc.devRef .tc main_arg5) = (m ((c.tc : Thread nD τ).loc main_arg5)) := (layer0_arg5 (after opsNorm (launchContents m c))).trans (norm_arg5 m c)

/-! ## After the second layer's segment -/

theorem second_v58 : (after opsLayer1 (after opsLayer0 (after opsNorm (launchContents m c)))) (Proc.devRef .tc main_v58) = (layer (layer (m ((c.tc : Thread nD τ).loc main_arg0)) (normCol (m ((c.tc : Thread nD τ).loc main_arg3))) (normCol (m ((c.tc : Thread nD τ).loc main_arg4))) (m ((c.tc : Thread nD τ).loc main_arg3)) (m ((c.tc : Thread nD τ).loc main_arg4)) (wMat0 (m ((c.tc : Thread nD τ).loc main_arg1))) (bRow0 (m ((c.tc : Thread nD τ).loc main_arg2)))) (normCol (m ((c.tc : Thread nD τ).loc main_arg3))) (normCol (m ((c.tc : Thread nD τ).loc main_arg4))) (m ((c.tc : Thread nD τ).loc main_arg3)) (m ((c.tc : Thread nD τ).loc main_arg4)) (wMat1 (m ((c.tc : Thread nD τ).loc main_arg1))) (bRow1 (m ((c.tc : Thread nD τ).loc main_arg2)))) :=
  (layer1_v58 (after opsLayer0 (after opsNorm (launchContents m c)))).trans (by rw [first_v35, first_v10, first_v12, first_arg3, first_arg4, first_arg1, first_arg2])
theorem second_v10 : (after opsLayer1 (after opsLayer0 (after opsNorm (launchContents m c)))) (Proc.devRef .tc main_v10) = normCol (m ((c.tc : Thread nD τ).loc main_arg3)) := (layer1_v10 (after opsLayer0 (after opsNorm (launchContents m c)))).trans (first_v10 m c)
theorem second_v12 : (after opsLayer1 (after opsLayer0 (after opsNorm (launchContents m c)))) (Proc.devRef .tc main_v12) = normCol (m ((c.tc : Thread nD τ).loc main_arg4)) := (layer1_v12 (after opsLayer0 (after opsNorm (launchContents m c)))).trans (first_v12 m c)
theorem second_arg1 : (after opsLayer1 (after opsLayer0 (after opsNorm (launchContents m c)))) (Proc.devRef .tc main_arg1) = (m ((c.tc : Thread nD τ).loc main_arg1)) := (layer1_arg1 (after opsLayer0 (after opsNorm (launchContents m c)))).trans (first_arg1 m c)
theorem second_arg2 : (after opsLayer1 (after opsLayer0 (after opsNorm (launchContents m c)))) (Proc.devRef .tc main_arg2) = (m ((c.tc : Thread nD τ).loc main_arg2)) := (layer1_arg2 (after opsLayer0 (after opsNorm (launchContents m c)))).trans (first_arg2 m c)
theorem second_arg3 : (after opsLayer1 (after opsLayer0 (after opsNorm (launchContents m c)))) (Proc.devRef .tc main_arg3) = (m ((c.tc : Thread nD τ).loc main_arg3)) := (layer1_arg3 (after opsLayer0 (after opsNorm (launchContents m c)))).trans (first_arg3 m c)
theorem second_arg4 : (after opsLayer1 (after opsLayer0 (after opsNorm (launchContents m c)))) (Proc.devRef .tc main_arg4) = (m ((c.tc : Thread nD τ).loc main_arg4)) := (layer1_arg4 (after opsLayer0 (after opsNorm (launchContents m c)))).trans (first_arg4 m c)
theorem second_arg5 : (after opsLayer1 (after opsLayer0 (after opsNorm (launchContents m c)))) (Proc.devRef .tc main_arg5) = (m ((c.tc : Thread nD τ).loc main_arg5)) := (layer1_arg5 (after opsLayer0 (after opsNorm (launchContents m c)))).trans (first_arg5 m c)

/-! ## After the third layer's segment -/

theorem third_v81 : (after opsLayer2 (after opsLayer1 (after opsLayer0 (after opsNorm (launchContents m c))))) (Proc.devRef .tc main_v81) = (layer (layer (layer (m ((c.tc : Thread nD τ).loc main_arg0)) (normCol (m ((c.tc : Thread nD τ).loc main_arg3))) (normCol (m ((c.tc : Thread nD τ).loc main_arg4))) (m ((c.tc : Thread nD τ).loc main_arg3)) (m ((c.tc : Thread nD τ).loc main_arg4)) (wMat0 (m ((c.tc : Thread nD τ).loc main_arg1))) (bRow0 (m ((c.tc : Thread nD τ).loc main_arg2)))) (normCol (m ((c.tc : Thread nD τ).loc main_arg3))) (normCol (m ((c.tc : Thread nD τ).loc main_arg4))) (m ((c.tc : Thread nD τ).loc main_arg3)) (m ((c.tc : Thread nD τ).loc main_arg4)) (wMat1 (m ((c.tc : Thread nD τ).loc main_arg1))) (bRow1 (m ((c.tc : Thread nD τ).loc main_arg2)))) (normCol (m ((c.tc : Thread nD τ).loc main_arg3))) (normCol (m ((c.tc : Thread nD τ).loc main_arg4))) (m ((c.tc : Thread nD τ).loc main_arg3)) (m ((c.tc : Thread nD τ).loc main_arg4)) (wMat2 (m ((c.tc : Thread nD τ).loc main_arg1))) (bRow2 (m ((c.tc : Thread nD τ).loc main_arg2)))) :=
  (layer2_v81 (after opsLayer1 (after opsLayer0 (after opsNorm (launchContents m c))))).trans (by rw [second_v58, second_v10, second_v12, second_arg3, second_arg4, second_arg1, second_arg2])
theorem third_arg5 : (after opsLayer2 (after opsLayer1 (after opsLayer0 (after opsNorm (launchContents m c))))) (Proc.devRef .tc main_arg5) = (m ((c.tc : Thread nD τ).loc main_arg5)) := (layer2_arg5 (after opsLayer1 (after opsLayer0 (after opsNorm (launchContents m c))))).trans (second_arg5 m c)

/-! ## At the end -/

/-- THE RESULT BUFFER at the end of the run: the specification's function of the six argument arrays as launched. -/
theorem value : ends m c (Proc.devRef .tc main_v92) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (mean_v92 (after opsLayer2 (after opsLayer1 (after opsLayer0 (after opsNorm (launchContents m c)))))).trans (by rw [third_v81, third_arg5]; rfl)

end Cert.ReferenceIdeal.Fold

end
-- ==== Proof.RArgs.lean ====
/-
  No operation of the reference program writes an argument array: from any contents `V`, after the five segments each
  argument's buffer holds what it held (the fold of the operations' results, walked back one operation at a time).
-/
import proofs.«153640_j84679575208613_2_alg».proof.Proof.RRun

set_option maxRecDepth 16384

noncomputable section

namespace Cert.ReferenceIdeal.Kept

open Cert.ReferenceIdeal Cert.ReferenceIdeal.Gen Cert.ReferenceIdeal.Whole
open Idealize.ShloMosaic Idealize.ShloMosaic.TcCoe Idealize.ShloMosaic.StableHlo Idealize.SL.Sem

variable {F : FTy → Type} [FloatOps F] (V : Valuation τ sig (Elt F))

set_option maxHeartbeats 4000000 in
/-- Argument 0 ends as it started. -/
theorem arg0 :
    (after (opsPool (F := F)) (after (opsLayer2 (F := F)) (after (opsLayer1 (F := F)) (after (opsLayer0 (F := F)) (after (opsNorm (F := F)) V))))) (Proc.devRef .tc main_arg0)
      = V (Proc.devRef .tc main_arg0) := by
  after_results_simp

set_option maxHeartbeats 4000000 in
/-- Argument 1 ends as it started. -/
theorem arg1 :
    (after (opsPool (F := F)) (after (opsLayer2 (F := F)) (after (opsLayer1 (F := F)) (after (opsLayer0 (F := F)) (after (opsNorm (F := F)) V))))) (Proc.devRef .tc main_arg1)
      = V (Proc.devRef .tc main_arg1) := by
  after_results_simp

set_option maxHeartbeats 4000000 in
/-- Argument 2 ends as it started. -/
theorem arg2 :
    (after (opsPool (F := F)) (after (opsLayer2 (F := F)) (after (opsLayer1 (F := F)) (after (opsLayer0 (F := F)) (after (opsNorm (F := F)) V))))) (Proc.devRef .tc main_arg2)
      = V (Proc.devRef .tc main_arg2) := by
  after_results_simp

set_option maxHeartbeats 4000000 in
/-- Argument 3 ends as it started. -/
theorem arg3 :
    (after (opsPool (F := F)) (after (opsLayer2 (F := F)) (after (opsLayer1 (F := F)) (after (opsLayer0 (F := F)) (after (opsNorm (F := F)) V))))) (Proc.devRef .tc main_arg3)
      = V (Proc.devRef .tc main_arg3) := by
  after_results_simp

set_option maxHeartbeats 4000000 in
/-- Argument 4 ends as it started. -/
theorem arg4 :
    (after (opsPool (F := F)) (after (opsLayer2 (F := F)) (after (opsLayer1 (F := F)) (after (opsLayer0 (F := F)) (after (opsNorm (F := F)) V))))) (Proc.devRef .tc main_arg4)
      = V (Proc.devRef .tc main_arg4) := by
  after_results_simp

set_option maxHeartbeats 4000000 in
/-- Argument 5 ends as it started. -/
theorem arg5 :
    (after (opsPool (F := F)) (after (opsLayer2 (F := F)) (after (opsLayer1 (F := F)) (after (opsLayer0 (F := F)) (after (opsNorm (F := F)) V))))) (Proc.devRef .tc main_arg5)
      = V (Proc.devRef .tc main_arg5) := by
  after_results_simp

end Cert.ReferenceIdeal.Kept

end
-- ==== Proof.lean ====
/-
  A three-layer graph convolution with per-graph mean pooling: the Pallas program against its jnp reference.

  Both programs compute, from node features `x` (50000 × 128), weights `W` (3 × 128 × 128), biases `b` (3 × 128), the
  800000 edges' endpoints `src`, `dst` and the nodes' graph ids `g`,

      h₀ = x,   hₗ₊₁ = max (((A (hₗ · s_out)) · s_in) Wₗ + bₗ) 0   (l = 0, 1, 2),   result = mean over each graph of h₃,

  where `s_out v = (max 1 outdeg v)^(-1/2)`, `s_in v = (max 1 indeg v)^(-1/2)`, and `A` adds row `src e` into row `dst e`
  for every edge `e` (`Cert.Spec.result`). The two programs apply the same host operations for the degrees, the
  gathers and scatters and the pooling; they differ in the dense half of a layer only. The reference multiplies by the
  `s_in` column spread over the columns, takes one `dot_general` over all 50000 rows, adds the bias spread over the rows
  and floors at zero. The kernel program hands a Pallas kernel 2000 rows at a time: it multiplies the block by its
  2000 entries of `s_in`, narrows both factors to bf16 (the identity on extended reals), multiplies on the matrix unit
  into a zero accumulator, adds the bias row and floors at zero. Entry by entry both are
  `max (∑ k, (a (r, k) · s_in r) · Wₗ (k, q) + bₗ q) 0`: the same products summed in the same order, so no finiteness
  of the inputs is needed, and the precondition is never opened (`Cert.Linear.dense`, `dense_of_vector_ops`,
  `dense_of_host_ops`); a row of the output depends on that row of the input only, so the 25 blocks assemble into the
  whole product (`Cert.KernelIdeal.Call0.final` and its two siblings).

  The claims: the word-level and the idealized kernel programs' frames are the generated ones; the reference's frame
  is its run with the arguments read back; the idealization rewrote nothing; and both idealized programs end with the
  result buffer at `Cert.Spec.result` of the launch arrays (`Cert.KernelIdeal.Fold.value`,
  `Cert.ReferenceIdeal.Fold.value`), which agree.
-/
import proofs.«153640_j84679575208613_2_alg».proof.Defs
import proofs.«153640_j84679575208613_2_alg».proof.Proof.Gen.Kernel
import proofs.«153640_j84679575208613_2_alg».proof.Proof.Gen.Kernel.Frame
import proofs.«153640_j84679575208613_2_alg».proof.Proof.Gen.KernelIdeal
import proofs.«153640_j84679575208613_2_alg».proof.Proof.Gen.KernelIdeal.Frame
import proofs.«153640_j84679575208613_2_alg».proof.Proof.Gen.ReferenceIdeal
import proofs.«153640_j84679575208613_2_alg».proof.Proof.Gen.Pre_finite_inputs
import proofs.«153640_j84679575208613_2_alg».proof.Proof.KRun
import proofs.«153640_j84679575208613_2_alg».proof.Proof.KValue
import proofs.«153640_j84679575208613_2_alg».proof.Proof.RRun
import proofs.«153640_j84679575208613_2_alg».proof.Proof.RValue
import proofs.«153640_j84679575208613_2_alg».proof.Proof.RArgs
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs, and no operation of it writes an argument. -/
theorem frame_referenceIdeal : Cert.frame_ReferenceIdeal := fun m ρ _ =>
  (θ_run Cert.ReferenceIdeal.defs _ _).mono
    (fun r h c =>
      ⟨(h c Cert.ReferenceIdeal.main_arg0).trans (Cert.ReferenceIdeal.Kept.arg0 _),
       (h c Cert.ReferenceIdeal.main_arg1).trans (Cert.ReferenceIdeal.Kept.arg1 _),
       (h c Cert.ReferenceIdeal.main_arg2).trans (Cert.ReferenceIdeal.Kept.arg2 _),
       (h c Cert.ReferenceIdeal.main_arg3).trans (Cert.ReferenceIdeal.Kept.arg3 _),
       (h c Cert.ReferenceIdeal.main_arg4).trans (Cert.ReferenceIdeal.Kept.arg4 _),
       (h c Cert.ReferenceIdeal.main_arg5).trans (Cert.ReferenceIdeal.Kept.arg5 _)⟩)
    (Cert.ReferenceIdeal.Whole.run (F := Ideal) m ρ)

/-- The idealization rewrote no operation of the kernel program. -/
theorem preserves : Cert.preserves_Kernel_KernelIdeal := trivial

/-- From memories that agree on the six arguments both idealized programs end with the result buffer at the
    specification's function of them, the arguments unchanged. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.value m ρ c), (h c).2⟩)
      (Cert.KernelIdeal.Whole.run (F := Ideal) m ρ)
  · refine (θ_run Cert.ReferenceIdeal.defs _ _).mono
      (fun r h c =>
        ⟨?_,
         (h c Cert.ReferenceIdeal.main_arg0).trans (Cert.ReferenceIdeal.Kept.arg0 _),
         (h c Cert.ReferenceIdeal.main_arg1).trans (Cert.ReferenceIdeal.Kept.arg1 _),
         (h c Cert.ReferenceIdeal.main_arg2).trans (Cert.ReferenceIdeal.Kept.arg2 _),
         (h c Cert.ReferenceIdeal.main_arg3).trans (Cert.ReferenceIdeal.Kept.arg3 _),
         (h c Cert.ReferenceIdeal.main_arg4).trans (Cert.ReferenceIdeal.Kept.arg4 _),
         (h c Cert.ReferenceIdeal.main_arg5).trans (Cert.ReferenceIdeal.Kept.arg5 _)⟩)
      (Cert.ReferenceIdeal.Whole.run (F := Ideal) m' ρ')
    obtain ⟨a0, a1, a2, a3, a4, a5⟩ := hagree c
    refine (h c Cert.ReferenceIdeal.main_v92).trans ((Cert.ReferenceIdeal.Fold.value m' c).trans ?_)
    rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
